-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v84)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v84) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v113) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg9 : FVec F S64x128 .f32) (main_arg10 : FVec F S64x128 .f32) (main_arg11 : FVec F S64 .f32) (main_v33 : IVec S_ 1) : IVec S_ 1 :=
  let main_v34 : FVec F S64x128 .f32 := Host.absf main_arg9
  let main_cst_12 : FVec F S_ .f32 := constant S_ .f32 0x7F800000#32
  let main_v35 : FVec F S64x128 .f32 := broadcastInDim S64x128 ![] bcast_S_S64x128 main_cst_12
  let main_v36 : IVec S64x128 1 := cmpf .olt main_v34 main_v35
  let main_c_13 : IVec S_ 1 := constantI S_ 1 1#1
  let main_v37 : IVec S_ 1 := (fun x v => Host.reduce IntOp.andi x v reducesTo_S64x128_S_d0_1 h_S_) main_v36 main_c_13
  let main_v38 : IVec S_ 1 := andi main_v33 main_v37
  let main_v39 : FVec F S64x128 .f32 := Host.absf main_arg10
  let main_cst_14 : FVec F S_ .f32 := constant S_ .f32 0x7F800000#32
  let main_v40 : FVec F S64x128 .f32 := broadcastInDim S64x128 ![] bcast_S_S64x128 main_cst_14
  let main_v41 : IVec S64x128 1 := cmpf .olt main_v39 main_v40
  let main_c_15 : IVec S_ 1 := constantI S_ 1 1#1
  let main_v42 : IVec S_ 1 := (fun x v => Host.reduce IntOp.andi x v reducesTo_S64x128_S_d0_1 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  main_v48

def fn_part1 {F : FTy → Type} [FloatOps F] (main_arg6 : FVec F S128x128 .f32) (main_arg7 : FVec F S128x128 .f32) (main_arg8 : FVec F S128 .f32) (main_arg9 : FVec F S64x128 .f32) (main_arg10 : FVec F S64x128 .f32) (main_arg11 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_v33

def fn {F : FTy → Type} [FloatOps F] (main_arg0 : FVec F S50000x128 .f32) (main_arg1 : IVec S2x800000 32) (main_arg2 : IVec S50000 32) (main_arg3 : FVec F S128x128 .f32) (main_arg4 : FVec F S128x128 .f32) (main_arg5 : FVec F S128 .f32) (main_arg6 : FVec F S128x128 .f32) (main_arg7 : FVec F S128x128 .f32) (main_arg8 : FVec F S128 .f32) (main_arg9 : FVec F S64x128 .f32) (main_arg10 : FVec F S64x128 .f32) (main_arg11 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000x1 : Shape := ⟨2, ![50000, 1]⟩
abbrev S1x128 : Shape := ⟨2, ![1, 128]⟩
abbrev S2000x128 : Shape := ⟨2, ![2000, 128]⟩
abbrev S2000 : Shape := ⟨1, ![2000]⟩
abbrev S2000x1 : Shape := ⟨2, ![2000, 1]⟩
abbrev S128x64 : Shape := ⟨2, ![128, 64]⟩
abbrev S1x64 : Shape := ⟨2, ![1, 64]⟩
abbrev S50000x64 : Shape := ⟨2, ![50000, 64]⟩
abbrev S2000x64 : Shape := ⟨2, ![2000, 64]⟩
abbrev S64x64 : Shape := ⟨2, ![64, 64]⟩
abbrev S64x1 : Shape := ⟨2, ![64, 1]⟩

abbrev nBuf : Space → Nat
  | .hbm => 113
  | .vmem => 27
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S64x128, .f32⟩
  | .hbm, ⟨10, _⟩ => ⟨S64x128, .f32⟩
  | .hbm, ⟨11, _⟩ => ⟨S64, .f32⟩
  | .hbm, ⟨12, _⟩ => ⟨S1x800000, .i32⟩
  | .hbm, ⟨13, _⟩ => ⟨S800000, .i32⟩
  | .hbm, ⟨14, _⟩ => ⟨S1x800000, .i32⟩
  | .hbm, ⟨15, _⟩ => ⟨S800000, .i32⟩
  | .hbm, ⟨16, _⟩ => ⟨S_, .f32⟩
  | .hbm, ⟨17, _⟩ => ⟨S800000, .f32⟩
  | .hbm, ⟨18, _⟩ => ⟨S_, .f32⟩
  | .hbm, ⟨19, _⟩ => ⟨S50000, .f32⟩
  | .hbm, ⟨20, _⟩ => ⟨S800000x1, .i32⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S_, .i32⟩
  | .hbm, ⟨26, _⟩ => ⟨S800000, .i32⟩
  | .hbm, ⟨27, _⟩ => ⟨S800000, .i1⟩
  | .hbm, ⟨28, _⟩ => ⟨S_, .i32⟩
  | .hbm, ⟨29, _⟩ => ⟨S800000, .i32⟩
  | .hbm, ⟨30, _⟩ => ⟨S800000, .i32⟩
  | .hbm, ⟨31, _⟩ => ⟨S800000, .i32⟩
  | .hbm, ⟨32, _⟩ => ⟨S800000x1, .i32⟩
  | .hbm, ⟨33, _⟩ => ⟨S800000x128, .f32⟩
  | .hbm, ⟨34, _⟩ => ⟨S_, .f32⟩
  | .hbm, ⟨35, _⟩ => ⟨S50000x128, .f32⟩
  | .hbm, ⟨36, _⟩ => ⟨S800000x1, .i32⟩
  | .hbm, ⟨37, _⟩ => ⟨S50000x128, .f32⟩
  | .hbm, ⟨38, _⟩ => ⟨S50000x1, .f32⟩
  | .hbm, ⟨39, _⟩ => ⟨S50000x128, .f32⟩
  | .hbm, ⟨40, _⟩ => ⟨S50000x128, .f32⟩
  | .hbm, ⟨41, _⟩ => ⟨S128x128, .f32⟩
  | .hbm, ⟨42, _⟩ => ⟨S128x128, .bf16⟩
  | .hbm, ⟨43, _⟩ => ⟨S128x128, .f32⟩
  | .hbm, ⟨44, _⟩ => ⟨S128x128, .bf16⟩
  | .hbm, ⟨45, _⟩ => ⟨S1x128, .f32⟩
  | .hbm, ⟨46, _⟩ => ⟨S50000x128, .bf16⟩
  | .hbm, ⟨47, _⟩ => ⟨S50000x128, .bf16⟩
  | .hbm, ⟨48, _⟩ => ⟨S50000x128, .f32⟩
  | .hbm, ⟨49, _⟩ => ⟨S_, .i32⟩
  | .hbm, ⟨50, _⟩ => ⟨S800000, .i32⟩
  | .hbm, ⟨51, _⟩ => ⟨S800000, .i1⟩
  | .hbm, ⟨52, _⟩ => ⟨S_, .i32⟩
  | .hbm, ⟨53, _⟩ => ⟨S800000, .i32⟩
  | .hbm, ⟨54, _⟩ => ⟨S800000, .i32⟩
  | .hbm, ⟨55, _⟩ => ⟨S800000, .i32⟩
  | .hbm, ⟨56, _⟩ => ⟨S800000x1, .i32⟩
  | .hbm, ⟨57, _⟩ => ⟨S800000x128, .f32⟩
  | .hbm, ⟨58, _⟩ => ⟨S_, .f32⟩
  | .hbm, ⟨59, _⟩ => ⟨S50000x128, .f32⟩
  | .hbm, ⟨60, _⟩ => ⟨S800000x1, .i32⟩
  | .hbm, ⟨61, _⟩ => ⟨S50000x128, .f32⟩
  | .hbm, ⟨62, _⟩ => ⟨S50000x1, .f32⟩
  | .hbm, ⟨63, _⟩ => ⟨S50000x128, .f32⟩
  | .hbm, ⟨64, _⟩ => ⟨S50000x128, .f32⟩
  | .hbm, ⟨65, _⟩ => ⟨S128x128, .f32⟩
  | .hbm, ⟨66, _⟩ => ⟨S128x128, .bf16⟩
  | .hbm, ⟨67, _⟩ => ⟨S128x128, .f32⟩
  | .hbm, ⟨68, _⟩ => ⟨S128x128, .bf16⟩
  | .hbm, ⟨69, _⟩ => ⟨S1x128, .f32⟩
  | .hbm, ⟨70, _⟩ => ⟨S50000x128, .bf16⟩
  | .hbm, ⟨71, _⟩ => ⟨S50000x128, .bf16⟩
  | .hbm, ⟨72, _⟩ => ⟨S50000x128, .f32⟩
  | .hbm, ⟨73, _⟩ => ⟨S_, .i32⟩
  | .hbm, ⟨74, _⟩ => ⟨S800000, .i32⟩
  | .hbm, ⟨75, _⟩ => ⟨S800000, .i1⟩
  | .hbm, ⟨76, _⟩ => ⟨S_, .i32⟩
  | .hbm, ⟨77, _⟩ => ⟨S800000, .i32⟩
  | .hbm, ⟨78, _⟩ => ⟨S800000, .i32⟩
  | .hbm, ⟨79, _⟩ => ⟨S800000, .i32⟩
  | .hbm, ⟨80, _⟩ => ⟨S800000x1, .i32⟩
  | .hbm, ⟨81, _⟩ => ⟨S800000x128, .f32⟩
  | .hbm, ⟨82, _⟩ => ⟨S_, .f32⟩
  | .hbm, ⟨83, _⟩ => ⟨S50000x128, .f32⟩
  | .hbm, ⟨84, _⟩ => ⟨S800000x1, .i32⟩
  | .hbm, ⟨85, _⟩ => ⟨S50000x128, .f32⟩
  | .hbm, ⟨86, _⟩ => ⟨S50000x1, .f32⟩
  | .hbm, ⟨87, _⟩ => ⟨S50000x128, .f32⟩
  | .hbm, ⟨88, _⟩ => ⟨S50000x128, .f32⟩
  | .hbm, ⟨89, _⟩ => ⟨S128x64, .f32⟩
  | .hbm, ⟨90, _⟩ => ⟨S128x64, .bf16⟩
  | .hbm, ⟨91, _⟩ => ⟨S128x64, .f32⟩
  | .hbm, ⟨92, _⟩ => ⟨S128x64, .bf16⟩
  | .hbm, ⟨93, _⟩ => ⟨S1x64, .f32⟩
  | .hbm, ⟨94, _⟩ => ⟨S50000x128, .bf16⟩
  | .hbm, ⟨95, _⟩ => ⟨S50000x128, .bf16⟩
  | .hbm, ⟨96, _⟩ => ⟨S50000x64, .f32⟩
  | .hbm, ⟨97, _⟩ => ⟨S_, .f32⟩
  | .hbm, ⟨98, _⟩ => ⟨S64x64, .f32⟩
  | .hbm, ⟨99, _⟩ => ⟨S50000x1, .i32⟩
  | .hbm, ⟨100, _⟩ => ⟨S64x64, .f32⟩
  | .hbm, ⟨101, _⟩ => ⟨S_, .f32⟩
  | .hbm, ⟨102, _⟩ => ⟨S50000, .f32⟩
  | .hbm, ⟨103, _⟩ => ⟨S_, .f32⟩
  | .hbm, ⟨104, _⟩ => ⟨S64, .f32⟩
  | .hbm, ⟨105, _⟩ => ⟨S50000x1, .i32⟩
  | .hbm, ⟨106, _⟩ => ⟨S64, .f32⟩
  | .hbm, ⟨107, _⟩ => ⟨S_, .f32⟩
  | .hbm, ⟨108, _⟩ => ⟨S64, .f32⟩
  | .hbm, ⟨109, _⟩ => ⟨S64, .f32⟩
  | .hbm, ⟨110, _⟩ => ⟨S64x1, .f32⟩
  | .hbm, ⟨111, _⟩ => ⟨S64x64, .f32⟩
  | .hbm, ⟨112, _⟩ => ⟨S64x64, .f32⟩
  | .local _ .vmem, ⟨0, _⟩ => ⟨S2000x128, .bf16⟩
  | .local _ .vmem, ⟨1, _⟩ => ⟨S2000x128, .bf16⟩
  | .local _ .vmem, ⟨2, _⟩ => ⟨S2000x128, .bf16⟩
  | .local _ .vmem, ⟨3, _⟩ => ⟨S2000x128, .bf16⟩
  | .local _ .vmem, ⟨4, _⟩ => ⟨S128x128, .bf16⟩
  | .local _ .vmem, ⟨5, _⟩ => ⟨S128x128, .bf16⟩
  | .local _ .vmem, ⟨6, _⟩ => ⟨S1x128, .f32⟩
  | .local _ .vmem, ⟨7, _⟩ => ⟨S2000x128, .f32⟩
  | .local _ .vmem, ⟨8, _⟩ => ⟨S2000x128, .f32⟩
  | .local _ .vmem, ⟨9, _⟩ => ⟨S2000x128, .bf16⟩
  | .local _ .vmem, ⟨10, _⟩ => ⟨S2000x128, .bf16⟩
  | .local _ .vmem, ⟨11, _⟩ => ⟨S2000x128, .bf16⟩
  | .local _ .vmem, ⟨12, _⟩ => ⟨S2000x128, .bf16⟩
  | .local _ .vmem, ⟨13, _⟩ => ⟨S128x128, .bf16⟩
  | .local _ .vmem, ⟨14, _⟩ => ⟨S128x128, .bf16⟩
  | .local _ .vmem, ⟨15, _⟩ => ⟨S1x128, .f32⟩
  | .local _ .vmem, ⟨16, _⟩ => ⟨S2000x128, .f32⟩
  | .local _ .vmem, ⟨17, _⟩ => ⟨S2000x128, .f32⟩
  | .local _ .vmem, ⟨18, _⟩ => ⟨S2000x128, .bf16⟩
  | .local _ .vmem, ⟨19, _⟩ => ⟨S2000x128, .bf16⟩
  | .local _ .vmem, ⟨20, _⟩ => ⟨S2000x128, .bf16⟩
  | .local _ .vmem, ⟨21, _⟩ => ⟨S2000x128, .bf16⟩
  | .local _ .vmem, ⟨22, _⟩ => ⟨S128x64, .bf16⟩
  | .local _ .vmem, ⟨23, _⟩ => ⟨S128x64, .bf16⟩
  | .local _ .vmem, ⟨24, _⟩ => ⟨S1x64, .f32⟩
  | .local _ .vmem, ⟨25, _⟩ => ⟨S2000x64, .f32⟩
  | .local _ .vmem, ⟨26, _⟩ => ⟨S2000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_c : Ref sig .tc := ⟨.hbm, 25, rfl⟩
abbrev main_v10 : Ref sig .tc := ⟨.hbm, 26, rfl⟩
abbrev main_v11 : Ref sig .tc := ⟨.hbm, 27, rfl⟩
abbrev main_c_2 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_4 : Ref sig .tc := ⟨.hbm, 49, rfl⟩
abbrev main_v31 : Ref sig .tc := ⟨.hbm, 50, rfl⟩
abbrev main_v32 : Ref sig .tc := ⟨.hbm, 51, rfl⟩
abbrev main_c_5 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_6 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_c_7 : Ref sig .tc := ⟨.hbm, 73, rfl⟩
abbrev main_v52 : Ref sig .tc := ⟨.hbm, 74, rfl⟩
abbrev main_v53 : Ref sig .tc := ⟨.hbm, 75, rfl⟩
abbrev main_c_8 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_9 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_cst_10 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_cst_11 : Ref sig .tc := ⟨.hbm, 101, rfl⟩
abbrev main_v76 : Ref sig .tc := ⟨.hbm, 102, rfl⟩
abbrev main_cst_12 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_cst_13 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x64 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x64 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S128x128_S128x128_1_0 : S128x128.Transposes [1, 0] S128x128
  bitsLt_bf16_f32 : FTy.bits .bf16 < FTy.bits .f32
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  reduces_S2000x128_S2000 : S2000x128.Reduces [1] S2000
  shapeCasts_S2000_S2000x1 : S2000.ShapeCasts S2000x1
  broadcasts_S2000x1_S2000x128 : S2000x1.Broadcasts S2000x128
  transposes_S64x128_S128x64_1_0 : S64x128.Transposes [1, 0] S128x64
  shapeCasts_S64_S1x64 : S64.ShapeCasts S1x64
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  reduces_S2000x64_S2000 : S2000x64.Reduces [1] S2000
  broadcasts_S2000x1_S2000x64 : S2000x1.Broadcasts S2000x64
  inb_S2000x64_S2000x64_0_0 : ∀ a, (![0, 0] : Fin 2 → Nat) a + S2000x64.size a ≤ S2000x64.size a
  h_S2000x64 : 0 < S2000x64.numel
  bcast_S_S64x64 : S_.BroadcastsInDim S64x64 (![] : Fin 0 → Fin S64x64.rank)
  bcast_S_S64 : S_.BroadcastsInDim S64 (![] : Fin 0 → Fin S64.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x128_S2000x128_1_0_0_1_n_n_wf : DotDims.WF S2000x128 S128x128 S2000x128 [1] [0] [0] [1] [] []
  dot_S2000x128_S128x64_S2000x64_1_0_0_1_n_n_wf : DotDims.WF S2000x128 S128x64 S2000x64 [1] [0] [0] [1] [] []
  scatter_S64x64_S50000x1_S50000x64_1_0_0_1_wf : ScatterDims.WF S64x64 S50000x1 S50000x64 [1] [0] [0] 1
  scatter_S64_S50000x1_S50000_n_0_0_1_wf : ScatterDims.WF S64 S50000x1 S50000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .bf16 = 32 ∨ (Rect.block (s := S50000x128) S2000x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .bf16 = 32 ∨ (Rect.block (s := S50000x128) S2000x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S50000x128.size a
  hwx0_5 : ∀ i : grid0.Coords, EltTy.bits .f32 = 32 ∨ (Rect.block (s := S50000x128) S2000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .bf16 = 32 ∨ (Rect.block (s := S50000x128) S2000x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .bf16 = 32 ∨ (Rect.block (s := S50000x128) S2000x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .bf16 = 32 ∨ (Rect.block (s := S128x128) S128x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .bf16 = 32 ∨ (Rect.block (s := S128x128) S128x128.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S50000x128.size a
  hwx1_5 : ∀ i : grid1.Coords, EltTy.bits .f32 = 32 ∨ (Rect.block (s := S50000x128) S2000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .bf16 = 32 ∨ (Rect.block (s := S50000x128) S2000x128.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S50000x128.size a
  hwx2_1 : ∀ i : grid2.Coords, EltTy.bits .bf16 = 32 ∨ (Rect.block (s := S50000x128) S2000x128.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x64.size a ≤ S128x64.size a
  hwx2_2 : ∀ i : grid2.Coords, EltTy.bits .bf16 = 32 ∨ (Rect.block (s := S128x64) S128x64.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x64.size a ≤ S128x64.size a
  hwx2_3 : ∀ i : grid2.Coords, EltTy.bits .bf16 = 32 ∨ (Rect.block (s := S128x64) S128x64.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x64.size a ≤ S50000x64.size a
  hwx2_5 : ∀ i : grid2.Coords, EltTy.bits .f32 = 32 ∨ (Rect.block (s := S50000x64) S2000x64.size (cc2_transform_5 i) (hinb2_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def scatter_S64x64_S50000x1_S50000x64_1_0_0_1 : ScatterDims S64x64 S50000x1 S50000x64 where
  updateWindowDims := [1]
  insertedWindowDims := [0]
  scatterDimsToOperandDims := [0]
  indexVectorDim := 1
  wf := scatter_S64x64_S50000x1_S50000x64_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf

abbrev win0_0 : Pipeline.Window sig grid0 :=
  Pipeline.Window.ofSpec (Memref.whole main_v28) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v29) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v24) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v26) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v27) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v30) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v49) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v50) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v45) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v47) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v48) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v51) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v70) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v71) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v66) S128x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v68) S128x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v69) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v72) S2000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000x1 : Shape := ⟨2, ![50000, 1]⟩
abbrev S1x128 : Shape := ⟨2, ![1, 128]⟩
abbrev S128x64 : Shape := ⟨2, ![128, 64]⟩
abbrev S50000x64 : Shape := ⟨2, ![50000, 64]⟩
abbrev S1x64 : Shape := ⟨2, ![1, 64]⟩
abbrev S64x64 : Shape := ⟨2, ![64, 64]⟩
abbrev S64x1 : Shape := ⟨2, ![64, 1]⟩

abbrev nBuf : Space → Nat
  | .hbm => 167
  | .vmem => 0
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S128x128, .f32⟩
  | 4 => ⟨S128x128, .f32⟩
  | 5 => ⟨S128, .f32⟩
  | 6 => ⟨S128x128, .f32⟩
  | 7 => ⟨S128x128, .f32⟩
  | 8 => ⟨S128, .f32⟩
  | 9 => ⟨S64x128, .f32⟩
  | 10 => ⟨S64x128, .f32⟩
  | 11 => ⟨S64, .f32⟩
  | 12 => ⟨S1x800000, .i32⟩
  | 13 => ⟨S800000, .i32⟩
  | 14 => ⟨S1x800000, .i32⟩
  | 15 => ⟨S800000, .i32⟩
  | 16 => ⟨S_, .i32⟩
  | 17 => ⟨S800000, .i32⟩
  | 18 => ⟨S800000, .i1⟩
  | 19 => ⟨S_, .i32⟩
  | 20 => ⟨S800000, .i32⟩
  | 21 => ⟨S800000, .i32⟩
  | 22 => ⟨S800000, .i32⟩
  | 23 => ⟨S800000x1, .i32⟩
  | 24 => ⟨S800000x128, .f32⟩
  | 25 => ⟨S_, .f32⟩
  | 26 => ⟨S50000x128, .f32⟩
  | 27 => ⟨S800000x1, .i32⟩
  | 28 => ⟨S50000x128, .f32⟩
  | 29 => ⟨S_, .f32⟩
  | 30 => ⟨S800000, .f32⟩
  | 31 => ⟨S_, .f32⟩
  | 32 => ⟨S50000, .f32⟩
  | 33 => ⟨S800000x1, .i32⟩
  | 34 => ⟨S50000, .f32⟩
  | 35 => ⟨S_, .f32⟩
  | 36 => ⟨S50000, .f32⟩
  | 37 => ⟨S50000, .f32⟩
  | 38 => ⟨S50000x1, .f32⟩
  | 39 => ⟨S50000x128, .f32⟩
  | 40 => ⟨S50000x128, .f32⟩
  | 41 => ⟨S128x128, .f32⟩
  | 42 => ⟨S50000x128, .f32⟩
  | 43 => ⟨S1x128, .f32⟩
  | 44 => ⟨S50000x128, .f32⟩
  | 45 => ⟨S50000x128, .f32⟩
  | 46 => ⟨S128x128, .f32⟩
  | 47 => ⟨S50000x128, .f32⟩
  | 48 => ⟨S50000x128, .f32⟩
  | 49 => ⟨S50000x128, .f32⟩
  | 50 => ⟨S_, .f32⟩
  | 51 => ⟨S50000, .f32⟩
  | 52 => ⟨S50000x1, .f32⟩
  | 53 => ⟨S50000x1, .f32⟩
  | 54 => ⟨S_, .f32⟩
  | 55 => ⟨S50000x1, .f32⟩
  | 56 => ⟨S50000x1, .f32⟩
  | 57 => ⟨S50000x128, .f32⟩
  | 58 => ⟨S50000x128, .f32⟩
  | 59 => ⟨S_, .f32⟩
  | 60 => ⟨S50000x128, .f32⟩
  | 61 => ⟨S50000x128, .f32⟩
  | 62 => ⟨S_, .i32⟩
  | 63 => ⟨S800000, .i32⟩
  | 64 => ⟨S800000, .i1⟩
  | 65 => ⟨S_, .i32⟩
  | 66 => ⟨S800000, .i32⟩
  | 67 => ⟨S800000, .i32⟩
  | 68 => ⟨S800000, .i32⟩
  | 69 => ⟨S800000x1, .i32⟩
  | 70 => ⟨S800000x128, .f32⟩
  | 71 => ⟨S_, .f32⟩
  | 72 => ⟨S50000x128, .f32⟩
  | 73 => ⟨S800000x1, .i32⟩
  | 74 => ⟨S50000x128, .f32⟩
  | 75 => ⟨S_, .f32⟩
  | 76 => ⟨S800000, .f32⟩
  | 77 => ⟨S_, .f32⟩
  | 78 => ⟨S50000, .f32⟩
  | 79 => ⟨S800000x1, .i32⟩
  | 80 => ⟨S50000, .f32⟩
  | 81 => ⟨S_, .f32⟩
  | 82 => ⟨S50000, .f32⟩
  | 83 => ⟨S50000, .f32⟩
  | 84 => ⟨S50000x1, .f32⟩
  | 85 => ⟨S50000x128, .f32⟩
  | 86 => ⟨S50000x128, .f32⟩
  | 87 => ⟨S128x128, .f32⟩
  | 88 => ⟨S50000x128, .f32⟩
  | 89 => ⟨S1x128, .f32⟩
  | 90 => ⟨S50000x128, .f32⟩
  | 91 => ⟨S50000x128, .f32⟩
  | 92 => ⟨S128x128, .f32⟩
  | 93 => ⟨S50000x128, .f32⟩
  | 94 => ⟨S50000x128, .f32⟩
  | 95 => ⟨S50000x128, .f32⟩
  | 96 => ⟨S_, .f32⟩
  | 97 => ⟨S50000, .f32⟩
  | 98 => ⟨S50000x1, .f32⟩
  | 99 => ⟨S50000x1, .f32⟩
  | 100 => ⟨S_, .f32⟩
  | 101 => ⟨S50000x1, .f32⟩
  | 102 => ⟨S50000x1, .f32⟩
  | 103 => ⟨S50000x128, .f32⟩
  | 104 => ⟨S50000x128, .f32⟩
  | 105 => ⟨S_, .f32⟩
  | 106 => ⟨S50000x128, .f32⟩
  | 107 => ⟨S50000x128, .f32⟩
  | 108 => ⟨S_, .i32⟩
  | 109 => ⟨S800000, .i32⟩
  | 110 => ⟨S800000, .i1⟩
  | 111 => ⟨S_, .i32⟩
  | 112 => ⟨S800000, .i32⟩
  | 113 => ⟨S800000, .i32⟩
  | 114 => ⟨S800000, .i32⟩
  | 115 => ⟨S800000x1, .i32⟩
  | 116 => ⟨S800000x128, .f32⟩
  | 117 => ⟨S_, .f32⟩
  | 118 => ⟨S50000x128, .f32⟩
  | 119 => ⟨S800000x1, .i32⟩
  | 120 => ⟨S50000x128, .f32⟩
  | 121 => ⟨S_, .f32⟩
  | 122 => ⟨S800000, .f32⟩
  | 123 => ⟨S_, .f32⟩
  | 124 => ⟨S50000, .f32⟩
  | 125 => ⟨S800000x1, .i32⟩
  | 126 => ⟨S50000, .f32⟩
  | 127 => ⟨S_, .f32⟩
  | _ => ⟨S50000x128, .f32⟩

abbrev hbmTy0_1 (i : Nat) : BufTy := match i % 128 with
  | 0 => ⟨S50000, .f32⟩
  | 1 => ⟨S50000, .f32⟩
  | 2 => ⟨S50000x1, .f32⟩
  | 3 => ⟨S50000x128, .f32⟩
  | 4 => ⟨S50000x128, .f32⟩
  | 5 => ⟨S128x64, .f32⟩
  | 6 => ⟨S50000x64, .f32⟩
  | 7 => ⟨S1x64, .f32⟩
  | 8 => ⟨S50000x64, .f32⟩
  | 9 => ⟨S50000x64, .f32⟩
  | 10 => ⟨S128x64, .f32⟩
  | 11 => ⟨S50000x64, .f32⟩
  | 12 => ⟨S50000x64, .f32⟩
  | 13 => ⟨S50000x64, .f32⟩
  | 14 => ⟨S_, .f32⟩
  | 15 => ⟨S50000, .f32⟩
  | 16 => ⟨S50000x1, .f32⟩
  | 17 => ⟨S50000x1, .f32⟩
  | 18 => ⟨S_, .f32⟩
  | 19 => ⟨S50000x1, .f32⟩
  | 20 => ⟨S50000x1, .f32⟩
  | 21 => ⟨S50000x64, .f32⟩
  | 22 => ⟨S50000x64, .f32⟩
  | 23 => ⟨S_, .f32⟩
  | 24 => ⟨S64x64, .f32⟩
  | 25 => ⟨S50000x1, .i32⟩
  | 26 => ⟨S64x64, .f32⟩
  | 27 => ⟨S_, .f32⟩
  | 28 => ⟨S50000, .f32⟩
  | 29 => ⟨S_, .f32⟩
  | 30 => ⟨S64, .f32⟩
  | 31 => ⟨S50000x1, .i32⟩
  | 32 => ⟨S64, .f32⟩
  | 33 => ⟨S_, .f32⟩
  | 34 => ⟨S64, .f32⟩
  | 35 => ⟨S64, .f32⟩
  | 36 => ⟨S64x1, .f32⟩
  | 37 => ⟨S64x64, .f32⟩
  | 38 => ⟨S64x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_1 : Ref sig .tc := ⟨.hbm, 29, rfl⟩
abbrev main_v14 : Ref sig .tc := ⟨.hbm, 30, rfl⟩
abbrev main_cst_2 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_call0_v0 : Ref sig .tc := ⟨.hbm, 49, rfl⟩
abbrev main_call0_cst : Ref sig .tc := ⟨.hbm, 50, rfl⟩
abbrev main_call0_v1 : Ref sig .tc := ⟨.hbm, 51, rfl⟩
abbrev main_call0_v2 : Ref sig .tc := ⟨.hbm, 52, rfl⟩
abbrev main_v31 : Ref sig .tc := ⟨.hbm, 53, rfl⟩
abbrev main_cst_4 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_call1_cst : Ref sig .tc := ⟨.hbm, 59, rfl⟩
abbrev main_call1_v0 : Ref sig .tc := ⟨.hbm, 60, rfl⟩
abbrev main_v36 : Ref sig .tc := ⟨.hbm, 61, rfl⟩
abbrev main_c_5 : Ref sig .tc := ⟨.hbm, 62, rfl⟩
abbrev main_v37 : Ref sig .tc := ⟨.hbm, 63, rfl⟩
abbrev main_v38 : Ref sig .tc := ⟨.hbm, 64, rfl⟩
abbrev main_c_6 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_cst_7 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_cst_8 : Ref sig .tc := ⟨.hbm, 75, rfl⟩
abbrev main_v47 : Ref sig .tc := ⟨.hbm, 76, rfl⟩
abbrev main_cst_9 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_cst_10 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_call2_v0 : Ref sig .tc := ⟨.hbm, 95, rfl⟩
abbrev main_call2_cst : Ref sig .tc := ⟨.hbm, 96, rfl⟩
abbrev main_call2_v1 : Ref sig .tc := ⟨.hbm, 97, rfl⟩
abbrev main_call2_v2 : Ref sig .tc := ⟨.hbm, 98, rfl⟩
abbrev main_v64 : Ref sig .tc := ⟨.hbm, 99, rfl⟩
abbrev main_cst_11 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_call3_cst : Ref sig .tc := ⟨.hbm, 105, rfl⟩
abbrev main_call3_v0 : Ref sig .tc := ⟨.hbm, 106, rfl⟩
abbrev main_v69 : Ref sig .tc := ⟨.hbm, 107, rfl⟩
abbrev main_c_12 : Ref sig .tc := ⟨.hbm, 108, rfl⟩
abbrev main_v70 : Ref sig .tc := ⟨.hbm, 109, rfl⟩
abbrev main_v71 : Ref sig .tc := ⟨.hbm, 110, rfl⟩
abbrev main_c_13 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_cst_14 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_cst_15 : Ref sig .tc := ⟨.hbm, 121, rfl⟩
abbrev main_v80 : Ref sig .tc := ⟨.hbm, 122, rfl⟩
abbrev main_cst_16 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_cst_17 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_call4_v0 : Ref sig .tc := ⟨.hbm, 141, rfl⟩
abbrev main_call4_cst : Ref sig .tc := ⟨.hbm, 142, rfl⟩
abbrev main_call4_v1 : Ref sig .tc := ⟨.hbm, 143, rfl⟩
abbrev main_call4_v2 : Ref sig .tc := ⟨.hbm, 144, rfl⟩
abbrev main_v97 : Ref sig .tc := ⟨.hbm, 145, rfl⟩
abbrev main_cst_18 : Ref sig .tc := ⟨.hbm, 146, rfl⟩
abbrev main_v98 : Ref sig .tc := ⟨.hbm, 147, rfl⟩
abbrev main_v99 : Ref sig .tc := ⟨.hbm, 148, rfl⟩
abbrev main_v100 : Ref sig .tc := ⟨.hbm, 149, rfl⟩
abbrev main_v101 : Ref sig .tc := ⟨.hbm, 150, rfl⟩
abbrev main_cst_19 : Ref sig .tc := ⟨.hbm, 151, rfl⟩
abbrev main_v102 : Ref sig .tc := ⟨.hbm, 152, rfl⟩
abbrev main_v103 : Ref sig .tc := ⟨.hbm, 153, rfl⟩
abbrev main_v104 : Ref sig .tc := ⟨.hbm, 154, rfl⟩
abbrev main_cst_20 : Ref sig .tc := ⟨.hbm, 155, rfl⟩
abbrev main_v105 : Ref sig .tc := ⟨.hbm, 156, rfl⟩
abbrev main_cst_21 : Ref sig .tc := ⟨.hbm, 157, rfl⟩
abbrev main_v106 : Ref sig .tc := ⟨.hbm, 158, rfl⟩
abbrev main_v107 : Ref sig .tc := ⟨.hbm, 159, rfl⟩
abbrev main_v108 : Ref sig .tc := ⟨.hbm, 160, rfl⟩
abbrev main_cst_22 : Ref sig .tc := ⟨.hbm, 161, rfl⟩
abbrev main_v109 : Ref sig .tc := ⟨.hbm, 162, rfl⟩
abbrev main_v110 : Ref sig .tc := ⟨.hbm, 163, rfl⟩
abbrev main_v111 : Ref sig .tc := ⟨.hbm, 164, rfl⟩
abbrev main_v112 : Ref sig .tc := ⟨.hbm, 165, rfl⟩
abbrev main_v113 : Ref sig .tc := ⟨.hbm, 166, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S50000_d1 : S50000x128.ReducesTo [1] S50000
  h_S_ : 0 < S_.numel
  bcast_S_S50000x1 : S_.BroadcastsInDim S50000x1 (![] : Fin 0 → Fin S50000x1.rank)
  transposes_S64x128_S128x64_1_0 : S64x128.Transposes [1, 0] S128x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  reducesTo_S50000x64_S50000_d1 : S50000x64.ReducesTo [1] S50000
  bcast_S50000x1_S50000x64_0_1 : S50000x1.BroadcastsInDim S50000x64 (![0, 1] : Fin 2 → Fin S50000x64.rank)
  bcast_S_S64x64 : S_.BroadcastsInDim S64x64 (![] : Fin 0 → Fin S64x64.rank)
  bcast_S_S64 : S_.BroadcastsInDim S64 (![] : Fin 0 → Fin S64.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []
  scatter_S64x64_S50000x1_S50000x64_1_0_0_1_wf : ScatterDims.WF S64x64 S50000x1 S50000x64 [1] [0] [0] 1
  scatter_S64_S50000x1_S50000_n_0_0_1_wf : ScatterDims.WF S64 S50000x1 S50000 [] [0] [0] 1

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def scatter_S64x64_S50000x1_S50000x64_1_0_0_1 : ScatterDims S64x64 S50000x1 S50000x64 where
  updateWindowDims := [1]
  insertedWindowDims := [0]
  scatterDimsToOperandDims := [0]
  indexVectorDim := 1
  wf := scatter_S64x64_S50000x1_S50000x64_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf

class Facts : Prop extends Facts₀ where

variable [Facts]
-- ==== Proof.KernelRun.lean ====
/-
  The kernel program's run with its result named.

  The frame certificate of the program runs @main as seven segments (four stretches of host operations around three
  kernel regions) and ends with every unscoped buffer at the contents the fold W7 gives it.  Read at the result
  buffer this names the result; read at the argument buffers it says they are unchanged.
-/
import proofs.«140957_j82703890251957_1_alg».proof.Proof.Gen.KernelIdeal.Frame

set_option maxRecDepth 16384

noncomputable section

namespace Cert.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; the result buffer ends at the fold's contents
    and the twelve arguments as launched. -/
theorem run : θ_run defs (onTc (τ := τ) (main (F := F))) ⟨m, fun _ => 0, ρ⟩ (fun r => ∀ c : Dev nD,
      r.2.mem ((c.tc : Thread nD τ).loc main_v84) = W7 m ρ c (Proc.devRef .tc main_v84)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v84 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c),
       (h c _ (mem_uc main_arg9 (by decide))).trans (W7_main_arg9 m ρ c),
       (h c _ (mem_uc main_arg10 (by decide))).trans (W7_main_arg10 m ρ c),
       (h c _ (mem_uc main_arg11 (by decide))).trans (W7_main_arg11 m ρ c)⟩)

end Cert.KernelRun

end
-- ==== Proof.CombineRow.lean ====
/-
  One node's combine step, as a function of that node's two feature rows.

  A row `ar` of aggregated neighbour features and the node's own row `xr` (128 entries each) are mapped through two
  weight matrices [128, D] and a bias [D] to the D numbers  z j = Σ_k ar k · wl k j + Σ_k xr k · wr k j + b j ;
  the row z is then divided by  max (sqrt (Σ_j z j · z j)) ε  (L2 normalisation with a floor ε), and, in the hidden
  layers, clamped below at 0.  Everything is on the extended reals.  The two programs add the three terms of z in
  different orders; addition of extended reals is commutative and associative (also at the infinities), so the two
  orders give the same number and no finiteness is needed.
-/
import Idealize.ShloMosaic.PureOps.Ideal
import Idealize.ShloMosaic.PureOps.Ideal.Laws

noncomputable section

namespace Cert.Combine

open Idealize.ShloMosaic

/-- The floor of the norm, the binary32 word nearest 1e-12, read as an extended real. -/
abbrev eps : EReal := Ideal.ofBits .f32 0x2B8CBCCC#32

variable {D : Nat}

/-- The linear part, the two products added first and the bias last. -/
def lin (ar xr : Fin 128 → EReal) (wl wr : Fin 128 → Fin D → EReal) (b : Fin D → EReal) (j : Fin D) : EReal :=
  (∑ k : Fin 128, ar k * wl k j + ∑ k : Fin 128, xr k * wr k j) + b j

/-- The linear part, the bias added to the first product before the second product. -/
def linBiasFirst (ar xr : Fin 128 → EReal) (wl wr : Fin 128 → Fin D → EReal) (b : Fin D → EReal) (j : Fin D) : EReal :=
  (∑ k : Fin 128, ar k * wl k j + b j) + ∑ k : Fin 128, xr k * wr k j

/-- The two orders of the three terms agree: (p + c) + q = (p + q) + c in any commutative monoid. -/
theorem linBiasFirst_eq (ar xr : Fin 128 → EReal) (wl wr : Fin 128 → Fin D → EReal) (b : Fin D → EReal) :
    linBiasFirst ar xr wl wr b = lin ar xr wl wr b :=
  funext fun _ => add_right_comm _ _ _

/-- A row divided by its Euclidean length, the length floored at ε. -/
def unitRow (z : Fin D → EReal) (j : Fin D) : EReal :=
  Ideal.div (z j) (max (Ideal.sqrt (∑ j' : Fin D, z j' * z j')) eps)

/-- The combine step of the last layer: the normalised linear part. -/
def combPlain (ar xr : Fin 128 → EReal) (wl wr : Fin 128 → Fin D → EReal) (b : Fin D → EReal) (j : Fin D) : EReal :=
  unitRow (lin ar xr wl wr b) j

/-- The combine step of a hidden layer: the same, clamped below at zero. -/
def combRelu (ar xr : Fin 128 → EReal) (wl wr : Fin 128 → Fin D → EReal) (b : Fin D → EReal) (j : Fin D) : EReal :=
  max (unitRow (lin ar xr wl wr b) j) (Ideal.ofBits .f32 0x00000000#32)

end Cert.Combine

end
-- ==== Proof.LibProductAt.lean ====
/-
  A matrix product read at an index.

  Dimension numbers of a product [A, K] × [K, B] → [A, B] that contract the left factor's axis 1 with the right factor's
  axis 0, with no batch axis, index the two factors at the result index (p, q) and the contraction index k by (p, k) and
  (k, q). So any sum over the contraction index — a product into a zero accumulator, a host dot_general — is the sum
  over k < K of l (p, k) · r (k, q), and in particular reads only row p of the left factor and column q of the right one.
  General: nothing here depends on a particular program. An instance supplies the two kept coordinates (`hl0`, `hr1`:
  each is `unfold DotDims.lhsIdx; rw [dif_neg …, dif_pos …]; rfl` for literal dimension numbers) and `rfl` four times.
-/
import Idealize.ShloMosaic.Lib.ValueIdx
import Idealize.ShloMosaic.PureOps.Ideal.Laws

noncomputable section

namespace Cert.ProductAt

open Idealize.ShloMosaic

/-- The index (p, q) of a two-axis shape, from the two numbers and their bounds. -/
abbrev at2 {n0 n1 : Nat} (p : Nat) (hp : p < n0) (q : Nat) (hq : q < n1) : (⟨2, ![n0, n1]⟩ : Shape).Idx := fun a => match a with
  | ⟨0, _⟩ => ⟨p, hp⟩
  | ⟨1, _⟩ => ⟨q, hq⟩

/-- Equal coordinates give the same index. -/
theorem at2_congr {n0 n1 : Nat} {p p' q q' : Nat} (hp : p < n0) (hp' : p' < n0) (hq : q < n1) (hq' : q' < n1)
    (ep : p = p') (eq : q = q') : (at2 p hp q hq : (⟨2, ![n0, n1]⟩ : Shape).Idx) = at2 p' hp' q' hq' := by
  subst ep; subst eq; rfl

/-- Every index of a two-axis shape is the index of its two coordinates. -/
theorem eq_at2 {n0 n1 : Nat} (j : (⟨2, ![n0, n1]⟩ : Shape).Idx) :
    j = at2 (j 0).val (ValueIdx.idx2_lt0 j) (j 1).val (ValueIdx.idx2_lt1 j) := by
  funext a; match a with | ⟨0, _⟩ => rfl | ⟨1, _⟩ => rfl

/-- THE SUM, RE-INDEXED. Dimension numbers that contract the left factor's axis 1 with the right factor's axis 0 and
    keep the left factor's axis 0 and the right factor's axis 1 as the result's rows and columns (`hl0`, `hr1`): the sum
    over the contraction index is the sum over k < K of l (p, k) · r (k, q) at the result index (p, q). -/
theorem product_sum_eq {A B K : Nat} {φ₁ φ₂ : FTy}
    (d : DotDims (⟨2, ![A, K]⟩ : Shape) (⟨2, ![K, B]⟩ : Shape) (⟨2, ![A, B]⟩ : Shape))
    (hr : d.contr.rank = 1) (hs : d.contr.size ⟨0, by omega⟩ = K)
    (hlc : d.lhsContracting = [(1 : Fin 2)]) (hrc : d.rhsContracting = [(0 : Fin 2)])
    (hl0 : ∀ (j : (⟨2, ![A, B]⟩ : Shape).Idx) (q : d.contr.Idx), (d.lhsIdx j q 0).val = (j 0).val)
    (hr1 : ∀ (j : (⟨2, ![A, B]⟩ : Shape).Idx) (q : d.contr.Idx), (d.rhsIdx j q 1).val = (j 1).val)
    (l : FVec Ideal (⟨2, ![A, K]⟩ : Shape) φ₁) (r : FVec Ideal (⟨2, ![K, B]⟩ : Shape) φ₂) (j : (⟨2, ![A, B]⟩ : Shape).Idx) :
    ∑ q : d.contr.Idx, l (d.lhsIdx j q) * r (d.rhsIdx j q)
      = ∑ k : Fin K, l (at2 (j 0).val (ValueIdx.idx2_lt0 j) k.val k.isLt) * r (at2 k.val k.isLt (j 1).val (ValueIdx.idx2_lt1 j)) := by
  rw [← Equiv.sum_comp (ValueIdx.contrEquiv1 d K hr hs).symm]
  refine Finset.sum_congr rfl fun k _ => ?_
  have hk := ValueIdx.contrEquiv1_symm_val d K hr hs k
  have el : d.lhsIdx j ((ValueIdx.contrEquiv1 d K hr hs).symm k) = at2 (j 0).val (ValueIdx.idx2_lt0 j) k.val k.isLt :=
    funext fun a => Fin.ext (by
      match a with
      | ⟨0, _⟩ => exact hl0 j _
      | ⟨1, _⟩ => exact (d.lhsIdx_val_of_single hlc j _).trans hk)
  have er : d.rhsIdx j ((ValueIdx.contrEquiv1 d K hr hs).symm k) = at2 k.val k.isLt (j 1).val (ValueIdx.idx2_lt1 j) :=
    funext fun a => Fin.ext (by
      match a with
      | ⟨0, _⟩ => exact (d.rhsIdx_val_of_single hrc j _).trans hk
      | ⟨1, _⟩ => exact hr1 j _)
  rw [el, er]

end Cert.ProductAt

end
-- ==== Proof.LibColumn.lean ====
/-
  A vector as a one-column matrix, read at an index. An array of `a` entries recast to `a` rows of one column holds at
  row `p` (whatever the column coordinate, which can only be 0) the operand's entry `p`: row-major order counts the same
  entries in the same order on both sides.
-/
import Idealize.ShloMosaic.Lib.Pipeline.Value
import Idealize.ShloMosaic.Lib.ValueLayout

namespace Idealize.ShloMosaic.ValueIdx

open Idealize.ShloMosaic

variable {α : Type}

/-- An `[a]` array cast to `[a, 1]` reads, at `(p, u)`, the operand at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

end Idealize.ShloMosaic.ValueIdx
-- ==== Proof.LibLayout.lean ====
/-
  A keepdims column read at an index. An array with one column, broadcast along its unit axis to `b` columns,
  holds at `(p, c)` the operand's entry in row `p`: every column is a copy of the one column.
-/
import Idealize.ShloMosaic.Lib.Pipeline.Value
import Idealize.ShloMosaic.Lib.ValueLayout

namespace Idealize.ShloMosaic.ValueIdx

open Idealize.ShloMosaic

variable {α : Type}

/-- An `[a, 1]` array broadcast to `[a, b]` reads, at `(p, c)`, the operand's one column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.CombineBlock.lean ====
/-
  The combine step on a block of rows, read at an index.

  A block of A rows is combined as whole vectors: two matrix products into zero accumulators, the bias row laid along
  every row, the squares summed along each row, the square root of that column floored at ε and laid along every
  column, a division.  Read at row p and column q, this is the combine step of CombineRow applied to row p of the two
  left factors: the products read only row p (LibProductAt), the bias row is the same in every row, the lane sum at
  p is the sum over the columns of row p, and the column of norms at (p, q) is its entry at p.
-/
import proofs.«140957_j82703890251957_1_alg».proof.Proof.CombineRow
import proofs.«140957_j82703890251957_1_alg».proof.Proof.LibProductAt
import proofs.«140957_j82703890251957_1_alg».proof.Proof.LibColumn
import proofs.«140957_j82703890251957_1_alg».proof.Proof.LibLayout
import Idealize.ShloMosaic.Lib.ValueIdx
import Idealize.ShloMosaic.Lib.Pipeline.Value
import Idealize.ShloMosaic.Lib.ValueLayout
import Idealize.ShloMosaic.PureOps.Ideal.Laws

noncomputable section

namespace Cert.Combine

open Idealize.ShloMosaic Idealize.ShloMosaic.ValueIdx

variable {A D : Nat}

/-- The index over a row index p with coordinate k on the summed axis 1 is (p, k). -/
theorem lift_row (h : (⟨2, ![A, D]⟩ : Shape).Reduces [1] (⟨1, ![A]⟩ : Shape)) (p : Fin A) (k : Fin D) :
    h.lift (ix1 p) k = ix2 p k :=
  funext fun c => Fin.ext (by match c with | ⟨0, _⟩ => rfl | ⟨1, _⟩ => rfl)

/-- The linear part of a block at (p, j): the two products read row p of their left factors and column j of their
    right factors, the bias its entry j. -/
theorem lin_block {φa φw : FTy}
    (d : DotDims (⟨2, ![A, 128]⟩ : Shape) (⟨2, ![128, D]⟩ : Shape) (⟨2, ![A, D]⟩ : Shape))
    (hr : d.contr.rank = 1) (hs : d.contr.size ⟨0, by omega⟩ = 128)
    (hlc : d.lhsContracting = [(1 : Fin 2)]) (hrc : d.rhsContracting = [(0 : Fin 2)])
    (hl0 : ∀ (j : (⟨2, ![A, D]⟩ : Shape).Idx) (q : d.contr.Idx), (d.lhsIdx j q 0).val = (j 0).val)
    (hr1 : ∀ (j : (⟨2, ![A, D]⟩ : Shape).Idx) (q : d.contr.Idx), (d.rhsIdx j q 1).val = (j 1).val)
    (a x : FVec Ideal (⟨2, ![A, 128]⟩ : Shape) φa) (wl wr : FVec Ideal (⟨2, ![128, D]⟩ : Shape) φw)
    (b : FVec Ideal (⟨2, ![1, D]⟩ : Shape) .f32) (hb : (⟨2, ![1, D]⟩ : Shape).Broadcasts ⟨2, ![A, D]⟩)
    (p : Fin A) (j : Fin D) :
    addf (addf (matmul d none a wl (constant (⟨2, ![A, D]⟩ : Shape) .f32 0x00000000#32))
        (matmul d none x wr (constant (⟨2, ![A, D]⟩ : Shape) .f32 0x00000000#32)))
      (broadcastTo (⟨2, ![A, D]⟩ : Shape) b hb) (ix2 p j)
    = lin (fun k => a (ix2 p k)) (fun k => x (ix2 p k)) (fun k c => wl (ix2 k c)) (fun k c => wr (ix2 k c))
        (fun c => b (ix2 (0 : Fin 1) c)) j := by
  show (FloatOps.matmul d none a wl (constant (⟨2, ![A, D]⟩ : Shape) .f32 0x00000000#32) (ix2 p j)
      + FloatOps.matmul d none x wr (constant (⟨2, ![A, D]⟩ : Shape) .f32 0x00000000#32) (ix2 p j))
      + broadcastTo (⟨2, ![A, D]⟩ : Shape) b hb (ix2 p j) = _
  rw [Ideal.matmul_constant_zero_apply, Ideal.matmul_constant_zero_apply,
    ProductAt.product_sum_eq d hr hs hlc hrc hl0 hr1, ProductAt.product_sum_eq d hr hs hlc hrc hl0 hr1,
    broadcastTo_1b_ab_apply]
  rfl

/-- The normalisation of a block at (p, q): the row p of the block divided by its length floored at ε. -/
theorem unit_block (Z : FVec Ideal (⟨2, ![A, D]⟩ : Shape) .f32)
    (hred : (⟨2, ![A, D]⟩ : Shape).Reduces [1] (⟨1, ![A]⟩ : Shape))
    (hφ : FKind.Formats .f32) (hacc : (0x00000000#32 : BitVec 32) = FKind.add.neutral .f32 hφ)
    (hc : (⟨1, ![A]⟩ : Shape).ShapeCasts ⟨2, ![A, 1]⟩) (hb : (⟨2, ![A, 1]⟩ : Shape).Broadcasts ⟨2, ![A, D]⟩)
    (p : Fin A) (q : Fin D) :
    divf Z (broadcastTo (⟨2, ![A, D]⟩ : Shape)
        (maximumf (sqrt (shapeCast (⟨2, ![A, 1]⟩ : Shape)
            (multiReduction .add [1] (⟨1, ![A]⟩ : Shape) (mulf Z Z) 0x00000000#32 hred hφ hacc) hc))
          (broadcast (⟨2, ![A, 1]⟩ : Shape) (Scalar.ofBits (F := Ideal) .f32 0x2B8CBCCC#32))) hb) (ix2 p q)
    = unitRow (fun j => Z (ix2 p j)) q := by
  show Ideal.div (Z (ix2 p q)) (broadcastTo (⟨2, ![A, D]⟩ : Shape) _ hb (ix2 p q)) = _
  rw [broadcastTo_a1_ab_apply]
  show Ideal.div (Z (ix2 p q)) (max (Ideal.sqrt (shapeCast (⟨2, ![A, 1]⟩ : Shape) _ hc (ix2 p (0 : Fin 1)))) eps) = _
  rw [shapeCast_a_a1_apply, Ideal.multiReduction_add_single]
  unfold unitRow
  refine congrArg (fun s => Ideal.div (Z (ix2 p q)) (max (Ideal.sqrt s) eps)) ?_
  exact Finset.sum_congr rfl fun k _ => by rw [lift_row hred p k]; rfl

end Cert.Combine

end
-- ==== Proof.Region0.lean ====
/-
  Region 0: what the first combine kernel leaves in its output array.

  The kernel runs at 25 grid points; point t is handed rows 2000·t … 2000·t + 1999 of the aggregated features and of the
  node features, the two whole weight matrices and the bias row, and stores the combine step of every row of its
  block (CombineBlock) in the same rows of the output.  So the output array, once every point has written its block
  back, holds at (r, q) the combine step of row r of the two feature arrays: the 25 blocks tile the 50000 rows.
  Stated for ANY contents V of the buffers at the region's entry.
-/
import proofs.«140957_j82703890251957_1_alg».proof.Proof.Gen.KernelIdeal.Frame
import proofs.«140957_j82703890251957_1_alg».proof.Proof.CombineBlock

set_option maxRecDepth 16384

noncomputable section

namespace Cert.KernelRegion0

open Cert.KernelIdeal Cert.KernelIdeal.Gen Cert.Combine
open Idealize.ShloMosaic Idealize.ShloMosaic.TcCoe Idealize.ShloMosaic.ValueIdx Idealize.SL.Sem
open Idealize.ShloMosaic.Pipeline (Dat Cfg Window)

theorem hz : (![0, 0] : Fin 2 → Nat) = fun _ => 0 := funext fun a => by fin_cases a <;> rfl

/-! ## The body's stored value at an index of the block -/

theorem dot_l0 (j : S2000x128.Idx) (q : dot_S2000x128_S128x128_S2000x128_1_0_0_1_n_n.contr.Idx) :
    (dot_S2000x128_S128x128_S2000x128_1_0_0_1_n_n.lhsIdx j q 0).val = (j 0).val := by
  unfold DotDims.lhsIdx
  rw [dif_neg (show ¬(0 : Fin S2000x128.rank) ∈ dot_S2000x128_S128x128_S2000x128_1_0_0_1_n_n.lhsBatch by decide),
    dif_pos (show (0 : Fin S2000x128.rank) ∈ dot_S2000x128_S128x128_S2000x128_1_0_0_1_n_n.lhsNonContracting by decide)]
  rfl

theorem dot_r1 (j : S2000x128.Idx) (q : dot_S2000x128_S128x128_S2000x128_1_0_0_1_n_n.contr.Idx) :
    (dot_S2000x128_S128x128_S2000x128_1_0_0_1_n_n.rhsIdx j q 1).val = (j 1).val := by
  unfold DotDims.rhsIdx
  rw [dif_neg (show ¬(1 : Fin S128x128.rank) ∈ dot_S2000x128_S128x128_S2000x128_1_0_0_1_n_n.rhsBatch by decide),
    dif_pos (show (1 : Fin S128x128.rank) ∈ dot_S2000x128_S128x128_S2000x128_1_0_0_1_n_n.rhsNonContracting by decide)]
  rfl

/-- The stored block at (p, q) is the combine step of row p of the two loaded feature blocks. -/
theorem pay_at (x0 x1 : Vec Ideal S2000x128 .bf16) (x2 x3 : Vec Ideal S128x128 .bf16) (x4 : Vec Ideal S1x128 .f32)
    (p : Fin 2000) (q : Fin 128) :
    k0_pay1 (F := Ideal) x0 x1 x2 x3 x4 (ix2 p q)
    = combRelu (fun k => x0 (ix2 p k)) (fun k => x1 (ix2 p k)) (fun k c => x2 (ix2 k c)) (fun k c => x3 (ix2 k c))
        (fun c => x4 (ix2 (0 : Fin 1) c)) q := by
  unfold k0_pay1
  dsimp only
  rw [shapeCast_self x0, shapeCast_self x1, shapeCast_self x2, shapeCast_self x3, shapeCast_self x4]
  refine congrArg (fun t => max t (Ideal.ofBits .f32 0x00000000#32)) ?_
  refine (unit_block _ reduces_S2000x128_S2000 (.inl rfl) rfl shapeCasts_S2000_S2000x1 broadcasts_S2000x1_S2000x128 p q).trans ?_
  exact congrArg (fun z => unitRow z q) (funext fun j =>
    lin_block dot_S2000x128_S128x128_S2000x128_1_0_0_1_n_n rfl rfl rfl rfl dot_l0 dot_r1 x0 x1 x2 x3 x4
      broadcasts_S1x128_S2000x128 p j)

/-! ## The output array as one function of the arrays the region finds -/

/-- The combine step of every node: row r of the result from row r of the two feature arrays. -/
def nodes (a x : S50000x128.Idx → EReal) (wl wr : S128x128.Idx → EReal) (b : S1x128.Idx → EReal) :
    S50000x128.Idx → EReal := fun i =>
  combRelu (fun k => a (ix2 (⟨(i 0).val, idx2_lt0 i⟩ : Fin 50000) k)) (fun k => x (ix2 (⟨(i 0).val, idx2_lt0 i⟩ : Fin 50000) k))
    (fun k c => wl (ix2 k c)) (fun k c => wr (ix2 k c)) (fun c => b (ix2 (0 : Fin 1) c)) (⟨(i 1).val, idx2_lt1 i⟩ : Fin 128)

/-- The printed index maps over the 25 grid points: the two feature windows and the output window are at block row t,
    the weights and the bias at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

variable (V : (c : Dev nD) → (b : Ref sig .tc) → Buf (Elt Ideal) ((c : Thread nD τ).loc b))

/-- A feature window's block at point t, at (p, k), is the array at (2000·t + p, k). -/
theorem iblk_rows0 (c : Dev nD) (t : Fin cfg0.N) (p : Fin 2000) (k : Fin 128) (r : Fin 50000) (hr : r.val = 2000 * t.val + p.val) :
    (iblk0 V c 0 t : Vec Ideal S2000x128 .bf16) (ix2 p k) = (V c main_v28 : S50000x128.Idx → EReal) (ix2 r k) := by
  obtain ⟨e0, e1, -⟩ := idx_facts t
  unfold iblk0
  rw [View.read_apply]
  show V c main_v28 _ = V c main_v28 _
  congr 1
  funext a
  apply Fin.ext
  match a with
  | ⟨0, _⟩ => show win0_0.index t 0 * 2000 + 1 * p.val = r.val; rw [e0, hr]; omega
  | ⟨1, _⟩ => show win0_0.index t 1 * 128 + 1 * k.val = k.val; rw [e1]; omega

theorem iblk_rows1 (c : Dev nD) (t : Fin cfg0.N) (p : Fin 2000) (k : Fin 128) (r : Fin 50000) (hr : r.val = 2000 * t.val + p.val) :
    (iblk0 V c 1 t : Vec Ideal S2000x128 .bf16) (ix2 p k) = (V c main_v29 : S50000x128.Idx → EReal) (ix2 r k) := by
  obtain ⟨-, -, e0, e1, -⟩ := idx_facts t
  unfold iblk0
  rw [View.read_apply]
  show V c main_v29 _ = V c main_v29 _
  congr 1
  funext a
  apply Fin.ext
  match a with
  | ⟨0, _⟩ => show win0_1.index t 0 * 2000 + 1 * p.val = r.val; rw [e0, hr]; omega
  | ⟨1, _⟩ => show win0_1.index t 1 * 128 + 1 * k.val = k.val; rw [e1]; omega

/-- The weight and bias windows hold their whole arrays at every point. -/
theorem iblk_w2 (c : Dev nD) (t : Fin cfg0.N) (k : Fin 128) (j : Fin 128) :
    (iblk0 V c 2 t : Vec Ideal S128x128 .bf16) (ix2 k j) = (V c main_v24 : S128x128.Idx → EReal) (ix2 k j) := by
  obtain ⟨-, -, -, -, e0, e1, -⟩ := idx_facts t
  unfold iblk0
  rw [View.read_apply]
  show V c main_v24 _ = V c main_v24 _
  congr 1
  funext a
  apply Fin.ext
  match a with
  | ⟨0, _⟩ => show win0_2.index t 0 * 128 + 1 * k.val = k.val; rw [e0]; omega
  | ⟨1, _⟩ => show win0_2.index t 1 * 128 + 1 * j.val = j.val; rw [e1]; omega

theorem iblk_w3 (c : Dev nD) (t : Fin cfg0.N) (k : Fin 128) (j : Fin 128) :
    (iblk0 V c 3 t : Vec Ideal S128x128 .bf16) (ix2 k j) = (V c main_v26 : S128x128.Idx → EReal) (ix2 k j) := by
  obtain ⟨-, -, -, -, -, -, e0, e1, -⟩ := idx_facts t
  unfold iblk0
  rw [View.read_apply]
  show V c main_v26 _ = V c main_v26 _
  congr 1
  funext a
  apply Fin.ext
  match a with
  | ⟨0, _⟩ => show win0_3.index t 0 * 128 + 1 * k.val = k.val; rw [e0]; omega
  | ⟨1, _⟩ => show win0_3.index t 1 * 128 + 1 * j.val = j.val; rw [e1]; omega

theorem iblk_b4 (c : Dev nD) (t : Fin cfg0.N) (j : Fin 128) :
    (iblk0 V c 4 t : Vec Ideal S1x128 .f32) (ix2 (0 : Fin 1) j) = (V c main_v27 : S1x128.Idx → EReal) (ix2 (0 : Fin 1) j) := by
  obtain ⟨-, -, -, -, -, -, -, -, e0, e1, -⟩ := idx_facts t
  unfold iblk0
  rw [View.read_apply]
  show V c main_v27 _ = V c main_v27 _
  congr 1
  funext a
  apply Fin.ext
  match a with
  | ⟨0, _⟩ => show win0_4.index t 0 * 1 + 1 * 0 = 0; rw [e0]
  | ⟨1, _⟩ => show win0_4.index t 1 * 128 + 1 * j.val = j.val; rw [e1]; omega

/-- WHAT POINT t WRITES BACK is block t of `nodes` of the arrays the region finds. -/
theorem flushed_eq (c : Dev nD) (t : Fin cfg0.N) :
    (dat0 (F := Ideal) V c).flushed 5 t = ((cfg0.win 5).blk t).view.read (Elt Ideal)
      (nodes (V c main_v28) (V c main_v29) (V c main_v24) (V c main_v26) (V c main_v27)) := by
  show (cfg0.win 5).cut (grid0.coords t) ((dat0 V c).after 5 t) = _
  rw [after0_5]
  unfold out0_5
  rw [View.canon_unit_zero hz]
  simp only [View.ld_unit_zero (S := S2000x128) hz, View.ld_unit_zero (S := S128x128) hz, View.ld_unit_zero (S := S1x128) hz]
  obtain ⟨-, -, -, -, -, -, -, -, -, -, e0, e1⟩ := idx_facts t
  have ht : t.val < 25 := by have h := t.isLt; have hN : cfg0.N = 25 := N_0; omega
  funext y
  obtain ⟨p, q, rfl⟩ : ∃ (p : Fin 2000) (q : Fin 128), y = ix2 p q := ⟨y 0, y 1, eq_ix2 y⟩
  rw [View.read_apply]
  have hemb : ((cfg0.win 5).blk t).view.emb (ix2 p q) = ix2 (⟨2000 * t.val + p.val, by omega⟩ : Fin 50000) q := by
    funext a
    apply Fin.ext
    match a with
    | ⟨0, _⟩ => show win0_5.index t 0 * 2000 + 1 * p.val = 2000 * t.val + p.val; rw [e0]; omega
    | ⟨1, _⟩ => show win0_5.index t 1 * 128 + 1 * q.val = q.val; rw [e1]; omega
  rw [hemb]
  refine (pay_at _ _ _ _ _ p q).trans ?_
  unfold nodes
  refine congr (congr (congr (congr (congr (congrArg combRelu ?_) ?_) ?_) ?_) ?_) rfl
  · exact funext fun k => iblk_rows0 V c t p k _ rfl
  · exact funext fun k => iblk_rows1 V c t p k _ rfl
  · exact funext fun k => funext fun j => iblk_w2 V c t k j
  · exact funext fun k => funext fun j => iblk_w3 V c t k j
  · exact funext fun j => iblk_b4 V c t j

/-- An index of the output array is in point t's block iff its row is in rows 2000·t … 2000·t + 1999. -/
theorem mem_blk (t : Fin cfg0.N) (i : S50000x128.Idx) :
    i ∈ ((cfg0.win 5).blk t).view.set ↔ ∀ a : Fin 2, win0_5.index t a * S2000x128.size a ≤ (i a).val ∧ (i a).val < win0_5.index t a * S2000x128.size a + S2000x128.size a := by
  show i ∈ ((View.whole main_v30).slice (win0_5.rect t)).set ↔ _
  rw [View.set_slice_whole, Rect.mem_set_unit]
  exact Iff.rfl

/-- THE ARRAY after the region: the 25 blocks tile the rows, so it is `nodes` everywhere. -/
theorem final (c : Dev nD) :
    (dat0 (F := Ideal) V c).arrAt 5 cfg0.N
      = nodes (V c main_v28) (V c main_v29) (V c main_v24) (V c main_v26) (V c main_v27) :=
  (dat0 (F := Ideal) V c).arrAt_eq_of_cover 5 _ (fun t _ => flushed_eq V c t) fun i => by
    have hi0 : (i 0).val < 50000 := (i 0).isLt
    have hi1 : (i 1).val < 128 := (i 1).isLt
    have hN : cfg0.N = 25 := N_0
    refine ⟨⟨(i 0).val / 2000, by rw [hN]; omega⟩, flush0_5 _, ?_⟩
    rw [mem_blk]
    obtain ⟨-, -, -, -, -, -, -, -, -, -, e0, e1⟩ := idx_facts ⟨(i 0).val / 2000, by rw [hN]; omega⟩
    intro a
    match a with
    | ⟨0, _⟩ =>
      show win0_5.index _ (0 : Fin 2) * 2000 ≤ (i 0).val ∧ (i 0).val < win0_5.index _ (0 : Fin 2) * 2000 + 2000
      rw [e0]; show (i 0).val / 2000 * 2000 ≤ (i 0).val ∧ (i 0).val < (i 0).val / 2000 * 2000 + 2000; omega
    | ⟨1, _⟩ =>
      show win0_5.index _ (1 : Fin 2) * 128 ≤ (i 1).val ∧ (i 1).val < win0_5.index _ (1 : Fin 2) * 128 + 128
      rw [e1]; omega

end Cert.KernelRegion0

end
-- ==== Proof.Region1.lean ====
/-
  Region 1: what the second combine kernel leaves in its output array.

  The kernel runs at 25 grid points; point t is handed rows 2000·t … 2000·t + 1999 of the aggregated features and of the
  node features, the two whole weight matrices and the bias row, and stores the combine step of every row of its
  block (CombineBlock) in the same rows of the output.  So the output array, once every point has written its block
  back, holds at (r, q) the combine step of row r of the two feature arrays: the 25 blocks tile the 50000 rows.
  Stated for ANY contents V of the buffers at the region's entry.
-/
import proofs.«140957_j82703890251957_1_alg».proof.Proof.Gen.KernelIdeal.Frame
import proofs.«140957_j82703890251957_1_alg».proof.Proof.CombineBlock

set_option maxRecDepth 16384

noncomputable section

namespace Cert.KernelRegion1

open Cert.KernelIdeal Cert.KernelIdeal.Gen Cert.Combine
open Idealize.ShloMosaic Idealize.ShloMosaic.TcCoe Idealize.ShloMosaic.ValueIdx Idealize.SL.Sem
open Idealize.ShloMosaic.Pipeline (Dat Cfg Window)

theorem hz : (![0, 0] : Fin 2 → Nat) = fun _ => 0 := funext fun a => by fin_cases a <;> rfl

/-! ## The body's stored value at an index of the block -/

theorem dot_l0 (j : S2000x128.Idx) (q : dot_S2000x128_S128x128_S2000x128_1_0_0_1_n_n.contr.Idx) :
    (dot_S2000x128_S128x128_S2000x128_1_0_0_1_n_n.lhsIdx j q 0).val = (j 0).val := by
  unfold DotDims.lhsIdx
  rw [dif_neg (show ¬(0 : Fin S2000x128.rank) ∈ dot_S2000x128_S128x128_S2000x128_1_0_0_1_n_n.lhsBatch by decide),
    dif_pos (show (0 : Fin S2000x128.rank) ∈ dot_S2000x128_S128x128_S2000x128_1_0_0_1_n_n.lhsNonContracting by decide)]
  rfl

theorem dot_r1 (j : S2000x128.Idx) (q : dot_S2000x128_S128x128_S2000x128_1_0_0_1_n_n.contr.Idx) :
    (dot_S2000x128_S128x128_S2000x128_1_0_0_1_n_n.rhsIdx j q 1).val = (j 1).val := by
  unfold DotDims.rhsIdx
  rw [dif_neg (show ¬(1 : Fin S128x128.rank) ∈ dot_S2000x128_S128x128_S2000x128_1_0_0_1_n_n.rhsBatch by decide),
    dif_pos (show (1 : Fin S128x128.rank) ∈ dot_S2000x128_S128x128_S2000x128_1_0_0_1_n_n.rhsNonContracting by decide)]
  rfl

/-- The stored block at (p, q) is the combine step of row p of the two loaded feature blocks. -/
theorem pay_at (x0 x1 : Vec Ideal S2000x128 .bf16) (x2 x3 : Vec Ideal S128x128 .bf16) (x4 : Vec Ideal S1x128 .f32)
    (p : Fin 2000) (q : Fin 128) :
    k1_pay1 (F := Ideal) x0 x1 x2 x3 x4 (ix2 p q)
    = combRelu (fun k => x0 (ix2 p k)) (fun k => x1 (ix2 p k)) (fun k c => x2 (ix2 k c)) (fun k c => x3 (ix2 k c))
        (fun c => x4 (ix2 (0 : Fin 1) c)) q := by
  unfold k1_pay1
  dsimp only
  rw [shapeCast_self x0, shapeCast_self x1, shapeCast_self x2, shapeCast_self x3, shapeCast_self x4]
  refine congrArg (fun t => max t (Ideal.ofBits .f32 0x00000000#32)) ?_
  refine (unit_block _ reduces_S2000x128_S2000 (.inl rfl) rfl shapeCasts_S2000_S2000x1 broadcasts_S2000x1_S2000x128 p q).trans ?_
  exact congrArg (fun z => unitRow z q) (funext fun j =>
    lin_block dot_S2000x128_S128x128_S2000x128_1_0_0_1_n_n rfl rfl rfl rfl dot_l0 dot_r1 x0 x1 x2 x3 x4
      broadcasts_S1x128_S2000x128 p j)

/-! ## The output array as one function of the arrays the region finds -/

/-- The combine step of every node: row r of the result from row r of the two feature arrays. -/
def nodes (a x : S50000x128.Idx → EReal) (wl wr : S128x128.Idx → EReal) (b : S1x128.Idx → EReal) :
    S50000x128.Idx → EReal := fun i =>
  combRelu (fun k => a (ix2 (⟨(i 0).val, idx2_lt0 i⟩ : Fin 50000) k)) (fun k => x (ix2 (⟨(i 0).val, idx2_lt0 i⟩ : Fin 50000) k))
    (fun k c => wl (ix2 k c)) (fun k c => wr (ix2 k c)) (fun c => b (ix2 (0 : Fin 1) c)) (⟨(i 1).val, idx2_lt1 i⟩ : Fin 128)

/-- The printed index maps over the 25 grid points: the two feature windows and the output window are at block row t,
    the weights and the bias at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

variable (V : (c : Dev nD) → (b : Ref sig .tc) → Buf (Elt Ideal) ((c : Thread nD τ).loc b))

/-- A feature window's block at point t, at (p, k), is the array at (2000·t + p, k). -/
theorem iblk_rows0 (c : Dev nD) (t : Fin cfg1.N) (p : Fin 2000) (k : Fin 128) (r : Fin 50000) (hr : r.val = 2000 * t.val + p.val) :
    (iblk1 V c 0 t : Vec Ideal S2000x128 .bf16) (ix2 p k) = (V c main_v49 : S50000x128.Idx → EReal) (ix2 r k) := by
  obtain ⟨e0, e1, -⟩ := idx_facts t
  unfold iblk1
  rw [View.read_apply]
  show V c main_v49 _ = V c main_v49 _
  congr 1
  funext a
  apply Fin.ext
  match a with
  | ⟨0, _⟩ => show win1_0.index t 0 * 2000 + 1 * p.val = r.val; rw [e0, hr]; omega
  | ⟨1, _⟩ => show win1_0.index t 1 * 128 + 1 * k.val = k.val; rw [e1]; omega

theorem iblk_rows1 (c : Dev nD) (t : Fin cfg1.N) (p : Fin 2000) (k : Fin 128) (r : Fin 50000) (hr : r.val = 2000 * t.val + p.val) :
    (iblk1 V c 1 t : Vec Ideal S2000x128 .bf16) (ix2 p k) = (V c main_v50 : S50000x128.Idx → EReal) (ix2 r k) := by
  obtain ⟨-, -, e0, e1, -⟩ := idx_facts t
  unfold iblk1
  rw [View.read_apply]
  show V c main_v50 _ = V c main_v50 _
  congr 1
  funext a
  apply Fin.ext
  match a with
  | ⟨0, _⟩ => show win1_1.index t 0 * 2000 + 1 * p.val = r.val; rw [e0, hr]; omega
  | ⟨1, _⟩ => show win1_1.index t 1 * 128 + 1 * k.val = k.val; rw [e1]; omega

/-- The weight and bias windows hold their whole arrays at every point. -/
theorem iblk_w2 (c : Dev nD) (t : Fin cfg1.N) (k : Fin 128) (j : Fin 128) :
    (iblk1 V c 2 t : Vec Ideal S128x128 .bf16) (ix2 k j) = (V c main_v45 : S128x128.Idx → EReal) (ix2 k j) := by
  obtain ⟨-, -, -, -, e0, e1, -⟩ := idx_facts t
  unfold iblk1
  rw [View.read_apply]
  show V c main_v45 _ = V c main_v45 _
  congr 1
  funext a
  apply Fin.ext
  match a with
  | ⟨0, _⟩ => show win1_2.index t 0 * 128 + 1 * k.val = k.val; rw [e0]; omega
  | ⟨1, _⟩ => show win1_2.index t 1 * 128 + 1 * j.val = j.val; rw [e1]; omega

theorem iblk_w3 (c : Dev nD) (t : Fin cfg1.N) (k : Fin 128) (j : Fin 128) :
    (iblk1 V c 3 t : Vec Ideal S128x128 .bf16) (ix2 k j) = (V c main_v47 : S128x128.Idx → EReal) (ix2 k j) := by
  obtain ⟨-, -, -, -, -, -, e0, e1, -⟩ := idx_facts t
  unfold iblk1
  rw [View.read_apply]
  show V c main_v47 _ = V c main_v47 _
  congr 1
  funext a
  apply Fin.ext
  match a with
  | ⟨0, _⟩ => show win1_3.index t 0 * 128 + 1 * k.val = k.val; rw [e0]; omega
  | ⟨1, _⟩ => show win1_3.index t 1 * 128 + 1 * j.val = j.val; rw [e1]; omega

theorem iblk_b4 (c : Dev nD) (t : Fin cfg1.N) (j : Fin 128) :
    (iblk1 V c 4 t : Vec Ideal S1x128 .f32) (ix2 (0 : Fin 1) j) = (V c main_v48 : S1x128.Idx → EReal) (ix2 (0 : Fin 1) j) := by
  obtain ⟨-, -, -, -, -, -, -, -, e0, e1, -⟩ := idx_facts t
  unfold iblk1
  rw [View.read_apply]
  show V c main_v48 _ = V c main_v48 _
  congr 1
  funext a
  apply Fin.ext
  match a with
  | ⟨0, _⟩ => show win1_4.index t 0 * 1 + 1 * 0 = 0; rw [e0]
  | ⟨1, _⟩ => show win1_4.index t 1 * 128 + 1 * j.val = j.val; rw [e1]; omega

/-- WHAT POINT t WRITES BACK is block t of `nodes` of the arrays the region finds. -/
theorem flushed_eq (c : Dev nD) (t : Fin cfg1.N) :
    (dat1 (F := Ideal) V c).flushed 5 t = ((cfg1.win 5).blk t).view.read (Elt Ideal)
      (nodes (V c main_v49) (V c main_v50) (V c main_v45) (V c main_v47) (V c main_v48)) := by
  show (cfg1.win 5).cut (grid1.coords t) ((dat1 V c).after 5 t) = _
  rw [after1_5]
  unfold out1_5
  rw [View.canon_unit_zero hz]
  simp only [View.ld_unit_zero (S := S2000x128) hz, View.ld_unit_zero (S := S128x128) hz, View.ld_unit_zero (S := S1x128) hz]
  obtain ⟨-, -, -, -, -, -, -, -, -, -, e0, e1⟩ := idx_facts t
  have ht : t.val < 25 := by have h := t.isLt; have hN : cfg1.N = 25 := N_1; omega
  funext y
  obtain ⟨p, q, rfl⟩ : ∃ (p : Fin 2000) (q : Fin 128), y = ix2 p q := ⟨y 0, y 1, eq_ix2 y⟩
  rw [View.read_apply]
  have hemb : ((cfg1.win 5).blk t).view.emb (ix2 p q) = ix2 (⟨2000 * t.val + p.val, by omega⟩ : Fin 50000) q := by
    funext a
    apply Fin.ext
    match a with
    | ⟨0, _⟩ => show win1_5.index t 0 * 2000 + 1 * p.val = 2000 * t.val + p.val; rw [e0]; omega
    | ⟨1, _⟩ => show win1_5.index t 1 * 128 + 1 * q.val = q.val; rw [e1]; omega
  rw [hemb]
  refine (pay_at _ _ _ _ _ p q).trans ?_
  unfold nodes
  refine congr (congr (congr (congr (congr (congrArg combRelu ?_) ?_) ?_) ?_) ?_) rfl
  · exact funext fun k => iblk_rows0 V c t p k _ rfl
  · exact funext fun k => iblk_rows1 V c t p k _ rfl
  · exact funext fun k => funext fun j => iblk_w2 V c t k j
  · exact funext fun k => funext fun j => iblk_w3 V c t k j
  · exact funext fun j => iblk_b4 V c t j

/-- An index of the output array is in point t's block iff its row is in rows 2000·t … 2000·t + 1999. -/
theorem mem_blk (t : Fin cfg1.N) (i : S50000x128.Idx) :
    i ∈ ((cfg1.win 5).blk t).view.set ↔ ∀ a : Fin 2, win1_5.index t a * S2000x128.size a ≤ (i a).val ∧ (i a).val < win1_5.index t a * S2000x128.size a + S2000x128.size a := by
  show i ∈ ((View.whole main_v51).slice (win1_5.rect t)).set ↔ _
  rw [View.set_slice_whole, Rect.mem_set_unit]
  exact Iff.rfl

/-- THE ARRAY after the region: the 25 blocks tile the rows, so it is `nodes` everywhere. -/
theorem final (c : Dev nD) :
    (dat1 (F := Ideal) V c).arrAt 5 cfg1.N
      = nodes (V c main_v49) (V c main_v50) (V c main_v45) (V c main_v47) (V c main_v48) :=
  (dat1 (F := Ideal) V c).arrAt_eq_of_cover 5 _ (fun t _ => flushed_eq V c t) fun i => by
    have hi0 : (i 0).val < 50000 := (i 0).isLt
    have hi1 : (i 1).val < 128 := (i 1).isLt
    have hN : cfg1.N = 25 := N_1
    refine ⟨⟨(i 0).val / 2000, by rw [hN]; omega⟩, flush1_5 _, ?_⟩
    rw [mem_blk]
    obtain ⟨-, -, -, -, -, -, -, -, -, -, e0, e1⟩ := idx_facts ⟨(i 0).val / 2000, by rw [hN]; omega⟩
    intro a
    match a with
    | ⟨0, _⟩ =>
      show win1_5.index _ (0 : Fin 2) * 2000 ≤ (i 0).val ∧ (i 0).val < win1_5.index _ (0 : Fin 2) * 2000 + 2000
      rw [e0]; show (i 0).val / 2000 * 2000 ≤ (i 0).val ∧ (i 0).val < (i 0).val / 2000 * 2000 + 2000; omega
    | ⟨1, _⟩ =>
      show win1_5.index _ (1 : Fin 2) * 128 ≤ (i 1).val ∧ (i 1).val < win1_5.index _ (1 : Fin 2) * 128 + 128
      rw [e1]; omega

end Cert.KernelRegion1

end
-- ==== Proof.Region2.lean ====
/-
  Region 2: what the third combine kernel leaves in its output array.

  The kernel runs at 25 grid points; point t is handed rows 2000·t … 2000·t + 1999 of the aggregated features and of the
  node features, the two whole weight matrices and the bias row, and stores the combine step of every row of its
  block (CombineBlock) in the same rows of the output.  So the output array, once every point has written its block
  back, holds at (r, q) the combine step of row r of the two feature arrays: the 25 blocks tile the 50000 rows.
  The last layer has 64 output columns and no clamp.
  Stated for ANY contents V of the buffers at the region's entry.
-/
import proofs.«140957_j82703890251957_1_alg».proof.Proof.Gen.KernelIdeal.Frame
import proofs.«140957_j82703890251957_1_alg».proof.Proof.CombineBlock

set_option maxRecDepth 16384

noncomputable section

namespace Cert.KernelRegion2

open Cert.KernelIdeal Cert.KernelIdeal.Gen Cert.Combine
open Idealize.ShloMosaic Idealize.ShloMosaic.TcCoe Idealize.ShloMosaic.ValueIdx Idealize.SL.Sem
open Idealize.ShloMosaic.Pipeline (Dat Cfg Window)

theorem hz : (![0, 0] : Fin 2 → Nat) = fun _ => 0 := funext fun a => by fin_cases a <;> rfl

/-! ## The body's stored value at an index of the block -/

theorem dot_l0 (j : S2000x64.Idx) (q : dot_S2000x128_S128x64_S2000x64_1_0_0_1_n_n.contr.Idx) :
    (dot_S2000x128_S128x64_S2000x64_1_0_0_1_n_n.lhsIdx j q 0).val = (j 0).val := by
  unfold DotDims.lhsIdx
  rw [dif_neg (show ¬(0 : Fin S2000x128.rank) ∈ dot_S2000x128_S128x64_S2000x64_1_0_0_1_n_n.lhsBatch by decide),
    dif_pos (show (0 : Fin S2000x128.rank) ∈ dot_S2000x128_S128x64_S2000x64_1_0_0_1_n_n.lhsNonContracting by decide)]
  rfl

theorem dot_r1 (j : S2000x64.Idx) (q : dot_S2000x128_S128x64_S2000x64_1_0_0_1_n_n.contr.Idx) :
    (dot_S2000x128_S128x64_S2000x64_1_0_0_1_n_n.rhsIdx j q 1).val = (j 1).val := by
  unfold DotDims.rhsIdx
  rw [dif_neg (show ¬(1 : Fin S128x64.rank) ∈ dot_S2000x128_S128x64_S2000x64_1_0_0_1_n_n.rhsBatch by decide),
    dif_pos (show (1 : Fin S128x64.rank) ∈ dot_S2000x128_S128x64_S2000x64_1_0_0_1_n_n.rhsNonContracting by decide)]
  rfl

/-- The stored block at (p, q) is the combine step of row p of the two loaded feature blocks. -/
theorem pay_at (x0 x1 : Vec Ideal S2000x128 .bf16) (x2 x3 : Vec Ideal S128x64 .bf16) (x4 : Vec Ideal S1x64 .f32)
    (p : Fin 2000) (q : Fin 64) :
    k2_pay1 (F := Ideal) x0 x1 x2 x3 x4 (ix2 p q)
    = combPlain (fun k => x0 (ix2 p k)) (fun k => x1 (ix2 p k)) (fun k c => x2 (ix2 k c)) (fun k c => x3 (ix2 k c))
        (fun c => x4 (ix2 (0 : Fin 1) c)) q := by
  unfold k2_pay1
  dsimp only
  rw [shapeCast_self x0, shapeCast_self x1, shapeCast_self x2, shapeCast_self x3, shapeCast_self x4]
  unfold combPlain
  refine (unit_block _ reduces_S2000x64_S2000 (.inl rfl) rfl shapeCasts_S2000_S2000x1 broadcasts_S2000x1_S2000x64 p q).trans ?_
  exact congrArg (fun z => unitRow z q) (funext fun j =>
    lin_block dot_S2000x128_S128x64_S2000x64_1_0_0_1_n_n rfl rfl rfl rfl dot_l0 dot_r1 x0 x1 x2 x3 x4
      broadcasts_S1x64_S2000x64 p j)

/-! ## The output array as one function of the arrays the region finds -/

/-- The combine step of every node: row r of the result from row r of the two feature arrays. -/
def nodes (a x : S50000x128.Idx → EReal) (wl wr : S128x64.Idx → EReal) (b : S1x64.Idx → EReal) :
    S50000x64.Idx → EReal := fun i =>
  combPlain (fun k => a (ix2 (⟨(i 0).val, idx2_lt0 i⟩ : Fin 50000) k)) (fun k => x (ix2 (⟨(i 0).val, idx2_lt0 i⟩ : Fin 50000) k))
    (fun k c => wl (ix2 k c)) (fun k c => wr (ix2 k c)) (fun c => b (ix2 (0 : Fin 1) c)) (⟨(i 1).val, idx2_lt1 i⟩ : Fin 64)

/-- The printed index maps over the 25 grid points: the two feature windows and the output window are at block row t,
    the weights and the bias at block (0, 0). -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

variable (V : (c : Dev nD) → (b : Ref sig .tc) → Buf (Elt Ideal) ((c : Thread nD τ).loc b))

/-- A feature window's block at point t, at (p, k), is the array at (2000·t + p, k). -/
theorem iblk_rows0 (c : Dev nD) (t : Fin cfg2.N) (p : Fin 2000) (k : Fin 128) (r : Fin 50000) (hr : r.val = 2000 * t.val + p.val) :
    (iblk2 V c 0 t : Vec Ideal S2000x128 .bf16) (ix2 p k) = (V c main_v70 : S50000x128.Idx → EReal) (ix2 r k) := by
  obtain ⟨e0, e1, -⟩ := idx_facts t
  unfold iblk2
  rw [View.read_apply]
  show V c main_v70 _ = V c main_v70 _
  congr 1
  funext a
  apply Fin.ext
  match a with
  | ⟨0, _⟩ => show win2_0.index t 0 * 2000 + 1 * p.val = r.val; rw [e0, hr]; omega
  | ⟨1, _⟩ => show win2_0.index t 1 * 128 + 1 * k.val = k.val; rw [e1]; omega

theorem iblk_rows1 (c : Dev nD) (t : Fin cfg2.N) (p : Fin 2000) (k : Fin 128) (r : Fin 50000) (hr : r.val = 2000 * t.val + p.val) :
    (iblk2 V c 1 t : Vec Ideal S2000x128 .bf16) (ix2 p k) = (V c main_v71 : S50000x128.Idx → EReal) (ix2 r k) := by
  obtain ⟨-, -, e0, e1, -⟩ := idx_facts t
  unfold iblk2
  rw [View.read_apply]
  show V c main_v71 _ = V c main_v71 _
  congr 1
  funext a
  apply Fin.ext
  match a with
  | ⟨0, _⟩ => show win2_1.index t 0 * 2000 + 1 * p.val = r.val; rw [e0, hr]; omega
  | ⟨1, _⟩ => show win2_1.index t 1 * 128 + 1 * k.val = k.val; rw [e1]; omega

/-- The weight and bias windows hold their whole arrays at every point. -/
theorem iblk_w2 (c : Dev nD) (t : Fin cfg2.N) (k : Fin 128) (j : Fin 64) :
    (iblk2 V c 2 t : Vec Ideal S128x64 .bf16) (ix2 k j) = (V c main_v66 : S128x64.Idx → EReal) (ix2 k j) := by
  obtain ⟨-, -, -, -, e0, e1, -⟩ := idx_facts t
  unfold iblk2
  rw [View.read_apply]
  show V c main_v66 _ = V c main_v66 _
  congr 1
  funext a
  apply Fin.ext
  match a with
  | ⟨0, _⟩ => show win2_2.index t 0 * 128 + 1 * k.val = k.val; rw [e0]; omega
  | ⟨1, _⟩ => show win2_2.index t 1 * 64 + 1 * j.val = j.val; rw [e1]; omega

theorem iblk_w3 (c : Dev nD) (t : Fin cfg2.N) (k : Fin 128) (j : Fin 64) :
    (iblk2 V c 3 t : Vec Ideal S128x64 .bf16) (ix2 k j) = (V c main_v68 : S128x64.Idx → EReal) (ix2 k j) := by
  obtain ⟨-, -, -, -, -, -, e0, e1, -⟩ := idx_facts t
  unfold iblk2
  rw [View.read_apply]
  show V c main_v68 _ = V c main_v68 _
  congr 1
  funext a
  apply Fin.ext
  match a with
  | ⟨0, _⟩ => show win2_3.index t 0 * 128 + 1 * k.val = k.val; rw [e0]; omega
  | ⟨1, _⟩ => show win2_3.index t 1 * 64 + 1 * j.val = j.val; rw [e1]; omega

theorem iblk_b4 (c : Dev nD) (t : Fin cfg2.N) (j : Fin 64) :
    (iblk2 V c 4 t : Vec Ideal S1x64 .f32) (ix2 (0 : Fin 1) j) = (V c main_v69 : S1x64.Idx → EReal) (ix2 (0 : Fin 1) j) := by
  obtain ⟨-, -, -, -, -, -, -, -, e0, e1, -⟩ := idx_facts t
  unfold iblk2
  rw [View.read_apply]
  show V c main_v69 _ = V c main_v69 _
  congr 1
  funext a
  apply Fin.ext
  match a with
  | ⟨0, _⟩ => show win2_4.index t 0 * 1 + 1 * 0 = 0; rw [e0]
  | ⟨1, _⟩ => show win2_4.index t 1 * 64 + 1 * j.val = j.val; rw [e1]; omega

/-- WHAT POINT t WRITES BACK is block t of `nodes` of the arrays the region finds. -/
theorem flushed_eq (c : Dev nD) (t : Fin cfg2.N) :
    (dat2 (F := Ideal) V c).flushed 5 t = ((cfg2.win 5).blk t).view.read (Elt Ideal)
      (nodes (V c main_v70) (V c main_v71) (V c main_v66) (V c main_v68) (V c main_v69)) := by
  show (cfg2.win 5).cut (grid2.coords t) ((dat2 V c).after 5 t) = _
  rw [after2_5]
  unfold out2_5
  rw [View.canon_unit_zero hz]
  simp only [View.ld_unit_zero (S := S2000x128) hz, View.ld_unit_zero (S := S128x64) hz, View.ld_unit_zero (S := S1x64) hz]
  obtain ⟨-, -, -, -, -, -, -, -, -, -, e0, e1⟩ := idx_facts t
  have ht : t.val < 25 := by have h := t.isLt; have hN : cfg2.N = 25 := N_2; omega
  funext y
  obtain ⟨p, q, rfl⟩ : ∃ (p : Fin 2000) (q : Fin 64), y = ix2 p q := ⟨y 0, y 1, eq_ix2 y⟩
  rw [View.read_apply]
  have hemb : ((cfg2.win 5).blk t).view.emb (ix2 p q) = ix2 (⟨2000 * t.val + p.val, by omega⟩ : Fin 50000) q := by
    funext a
    apply Fin.ext
    match a with
    | ⟨0, _⟩ => show win2_5.index t 0 * 2000 + 1 * p.val = 2000 * t.val + p.val; rw [e0]; omega
    | ⟨1, _⟩ => show win2_5.index t 1 * 64 + 1 * q.val = q.val; rw [e1]; omega
  rw [hemb]
  refine (pay_at _ _ _ _ _ p q).trans ?_
  unfold nodes
  refine congr (congr (congr (congr (congr (congrArg combPlain ?_) ?_) ?_) ?_) ?_) rfl
  · exact funext fun k => iblk_rows0 V c t p k _ rfl
  · exact funext fun k => iblk_rows1 V c t p k _ rfl
  · exact funext fun k => funext fun j => iblk_w2 V c t k j
  · exact funext fun k => funext fun j => iblk_w3 V c t k j
  · exact funext fun j => iblk_b4 V c t j

/-- An index of the output array is in point t's block iff its row is in rows 2000·t … 2000·t + 1999. -/
theorem mem_blk (t : Fin cfg2.N) (i : S50000x64.Idx) :
    i ∈ ((cfg2.win 5).blk t).view.set ↔ ∀ a : Fin 2, win2_5.index t a * S2000x64.size a ≤ (i a).val ∧ (i a).val < win2_5.index t a * S2000x64.size a + S2000x64.size a := by
  show i ∈ ((View.whole main_v72).slice (win2_5.rect t)).set ↔ _
  rw [View.set_slice_whole, Rect.mem_set_unit]
  exact Iff.rfl

/-- THE ARRAY after the region: the 25 blocks tile the rows, so it is `nodes` everywhere. -/
theorem final (c : Dev nD) :
    (dat2 (F := Ideal) V c).arrAt 5 cfg2.N
      = nodes (V c main_v70) (V c main_v71) (V c main_v66) (V c main_v68) (V c main_v69) :=
  (dat2 (F := Ideal) V c).arrAt_eq_of_cover 5 _ (fun t _ => flushed_eq V c t) fun i => by
    have hi0 : (i 0).val < 50000 := (i 0).isLt
    have hi1 : (i 1).val < 64 := (i 1).isLt
    have hN : cfg2.N = 25 := N_2
    refine ⟨⟨(i 0).val / 2000, by rw [hN]; omega⟩, flush2_5 _, ?_⟩
    rw [mem_blk]
    obtain ⟨-, -, -, -, -, -, -, -, -, -, e0, e1⟩ := idx_facts ⟨(i 0).val / 2000, by rw [hN]; omega⟩
    intro a
    match a with
    | ⟨0, _⟩ =>
      show win2_5.index _ (0 : Fin 2) * 2000 ≤ (i 0).val ∧ (i 0).val < win2_5.index _ (0 : Fin 2) * 2000 + 2000
      rw [e0]; show (i 0).val / 2000 * 2000 ≤ (i 0).val ∧ (i 0).val < (i 0).val / 2000 * 2000 + 2000; omega
    | ⟨1, _⟩ =>
      show win2_5.index _ (1 : Fin 2) * 64 ≤ (i 1).val ∧ (i 1).val < win2_5.index _ (1 : Fin 2) * 64 + 64
      rw [e1]; omega

end Cert.KernelRegion2

end
-- ==== Proof.RefLayers.lean ====
/-
  The reference's three layers, read at an index.

  Each layer of the reference computes, on whole [50000, ·] arrays, a product of the aggregated features with a
  transposed weight matrix, adds the bias laid along every row, adds the product of the node features with a second
  transposed weight matrix, and divides every row by its Euclidean length floored at ε (and, in the two hidden layers,
  clamps at 0).  Read at node p and column q through the one-operation lemmas of the reference's run, this is the
  combine step of CombineRow at row p of the aggregated features and row p of the node features; the bias is added
  before the second product here, which CombineRow.linBiasFirst_eq reorders.  The host sum starts from the zero word,
  which is the extended real 0.
-/
import proofs.«140957_j82703890251957_1_alg».proof.Proof.Gen.ReferenceIdeal.Read
import proofs.«140957_j82703890251957_1_alg».proof.Proof.CombineRow
import Idealize.ShloMosaic.Lib.ValueIdx

noncomputable section

namespace Cert.RefLayers

open Cert.ReferenceIdeal Cert.ReferenceIdeal.Gen Cert.ReferenceIdeal.Read Cert.Combine
open Idealize.ShloMosaic Idealize.ShloMosaic.ValueIdx

/-- The host's row sum starts from the zero word, which is the extended real 0: it drops out of the sum. -/
theorem ofBits_zero_add (s : EReal) : Ideal.ofBits .f32 0x00000000#32 + s = s := by
  rw [Ideal.ofBits_zero_f32, zero_add]

/-! ## Layer 0 -/

section layer0
variable (x0 : (⟨S50000x128, .f32⟩ : BufTy).Contents (Elt Ideal)) (x1 : (⟨S2x800000, .i32⟩ : BufTy).Contents (Elt Ideal)) (x3 x4 : (⟨S128x128, .f32⟩ : BufTy).Contents (Elt Ideal)) (x5 : (⟨S128, .f32⟩ : BufTy).Contents (Elt Ideal))

/-- The linear part of the layer at node p, column j. -/
theorem layer0_lin (p : Fin 50000) (j : Fin 128) :
    val_main_v30 (F := Ideal) x0 x1 x3 x4 x5 (ix2 p j)
    = lin (fun k => val_main_v22 (F := Ideal) x0 x1 (ix2 p k)) (fun k => x0 (ix2 p k))
        (fun k c => val_main_v23 (F := Ideal) x3 (ix2 k c)) (fun k c => val_main_v28 (F := Ideal) x4 (ix2 k c)) (fun c => x5 (ix1 c)) j := by
  rw [val_main_v30_apply, val_main_v27_apply, val_main_v24_apply, val_main_v26_apply, val_main_v25_apply, val_main_v29_apply]
  have e1 : ∀ k : Fin 128, lidx_main_v24 (ix2 p j) k = ix2 p k := fun k =>
    funext fun a => Fin.ext (by match a with | ⟨0, _⟩ => rfl | ⟨1, _⟩ => rfl)
  have e2 : ∀ k : Fin 128, ridx_main_v24 (ix2 p j) k = ix2 k j := fun k =>
    funext fun a => Fin.ext (by match a with | ⟨0, _⟩ => rfl | ⟨1, _⟩ => rfl)
  have e3 : ∀ k : Fin 128, lidx_main_v29 (ix2 p j) k = ix2 p k := fun k =>
    funext fun a => Fin.ext (by match a with | ⟨0, _⟩ => rfl | ⟨1, _⟩ => rfl)
  have e4 : ∀ k : Fin 128, ridx_main_v29 (ix2 p j) k = ix2 k j := fun k =>
    funext fun a => Fin.ext (by match a with | ⟨0, _⟩ => rfl | ⟨1, _⟩ => rfl)
  have e5 : idx_main_v25 (idx_main_v26 (ix2 p j)) = ix1 j :=
    funext fun a => Fin.ext (by match a with | ⟨0, _⟩ => rfl)
  simp only [e1, e2, e3, e4, e5, Ideal.addf_def]
  unfold lin
  exact add_right_comm _ _ _

attribute [local irreducible] val_main_v22 val_main_v23 val_main_v28 val_main_v30

/-- The sum of the squares of row p of the linear part. -/
theorem layer0_sumsq (p : Fin 50000) :
    val_main_call0_v1 (F := Ideal) x0 x1 x3 x4 x5 (ix1 p)
    = ∑ k : Fin 128, lin (fun k => val_main_v22 (F := Ideal) x0 x1 (ix2 p k)) (fun k => x0 (ix2 p k))
        (fun k c => val_main_v23 (F := Ideal) x3 (ix2 k c)) (fun k c => val_main_v28 (F := Ideal) x4 (ix2 k c)) (fun c => x5 (ix1 c)) k * lin (fun k => val_main_v22 (F := Ideal) x0 x1 (ix2 p k)) (fun k => x0 (ix2 p k))
        (fun k c => val_main_v23 (F := Ideal) x3 (ix2 k c)) (fun k c => val_main_v28 (F := Ideal) x4 (ix2 k c)) (fun c => x5 (ix1 c)) k := by
  rw [val_main_call0_v1_apply, val_main_call0_cst_apply]
  refine (ofBits_zero_add _).trans (Finset.sum_congr rfl fun k _ => ?_)
  have e : idx_main_call0_v1 (ix1 p) k = ix2 p k :=
    funext fun a => Fin.ext (by match a with | ⟨0, _⟩ => rfl | ⟨1, _⟩ => rfl)
  rw [e, val_main_call0_v0_apply, layer0_lin]
  rfl

/-- The floored length of row p. -/
theorem layer0_norm (p : Fin 50000) :
    val_main_v33 (F := Ideal) x0 x1 x3 x4 x5 (ix2 p (0 : Fin 1))
    = max (Ideal.sqrt (∑ k : Fin 128, lin (fun k => val_main_v22 (F := Ideal) x0 x1 (ix2 p k)) (fun k => x0 (ix2 p k))
        (fun k c => val_main_v23 (F := Ideal) x3 (ix2 k c)) (fun k c => val_main_v28 (F := Ideal) x4 (ix2 k c)) (fun c => x5 (ix1 c)) k * lin (fun k => val_main_v22 (F := Ideal) x0 x1 (ix2 p k)) (fun k => x0 (ix2 p k))
        (fun k c => val_main_v23 (F := Ideal) x3 (ix2 k c)) (fun k c => val_main_v28 (F := Ideal) x4 (ix2 k c)) (fun c => x5 (ix1 c)) k)) eps := by
  rw [val_main_v33_apply, val_main_v31_apply, val_main_call0_v2_apply, val_main_v32_apply, val_main_cst_4_apply]
  have e : idx_main_call0_v2 (ix2 p (0 : Fin 1)) = ix1 p :=
    funext fun a => Fin.ext (by match a with | ⟨0, _⟩ => rfl)
  rw [e, layer0_sumsq]
  rfl

/-- The layer's output at node p, column q. -/
theorem layer0_out (p : Fin 50000) (q : Fin 128) :
    val_main_v36 (F := Ideal) x0 x1 x3 x4 x5 (ix2 p q)
    = combRelu (fun k => val_main_v22 (F := Ideal) x0 x1 (ix2 p k)) (fun k => x0 (ix2 p k))
        (fun k c => val_main_v23 (F := Ideal) x3 (ix2 k c)) (fun k c => val_main_v28 (F := Ideal) x4 (ix2 k c)) (fun c => x5 (ix1 c)) q := by
  rw [val_main_v36_apply, val_main_call1_v0_apply, val_main_call1_cst_apply]
  rw [val_main_v35_apply, val_main_v34_apply]
  have e : idx_main_v34 (ix2 p q) = ix2 p (0 : Fin 1) :=
    funext fun a => Fin.ext (by match a with | ⟨0, _⟩ => rfl | ⟨1, _⟩ => rfl)
  rw [e, layer0_norm, layer0_lin]
  rfl

end layer0

/-! ## Layer 1 -/

section layer1
variable (x0 : (⟨S50000x128, .f32⟩ : BufTy).Contents (Elt Ideal)) (x1 : (⟨S2x800000, .i32⟩ : BufTy).Contents (Elt Ideal)) (x3 x4 : (⟨S128x128, .f32⟩ : BufTy).Contents (Elt Ideal)) (x5 : (⟨S128, .f32⟩ : BufTy).Contents (Elt Ideal)) (x6 x7 : (⟨S128x128, .f32⟩ : BufTy).Contents (Elt Ideal)) (x8 : (⟨S128, .f32⟩ : BufTy).Contents (Elt Ideal))

/-- The linear part of the layer at node p, column j. -/
theorem layer1_lin (p : Fin 50000) (j : Fin 128) :
    val_main_v63 (F := Ideal) x0 x1 x3 x4 x5 x6 x7 x8 (ix2 p j)
    = lin (fun k => val_main_v55 (F := Ideal) x0 x1 x3 x4 x5 (ix2 p k)) (fun k => val_main_v36 (F := Ideal) x0 x1 x3 x4 x5 (ix2 p k))
        (fun k c => val_main_v56 (F := Ideal) x6 (ix2 k c)) (fun k c => val_main_v61 (F := Ideal) x7 (ix2 k c)) (fun c => x8 (ix1 c)) j := by
  rw [val_main_v63_apply, val_main_v60_apply, val_main_v57_apply, val_main_v59_apply, val_main_v58_apply, val_main_v62_apply]
  have e1 : ∀ k : Fin 128, lidx_main_v57 (ix2 p j) k = ix2 p k := fun k =>
    funext fun a => Fin.ext (by match a with | ⟨0, _⟩ => rfl | ⟨1, _⟩ => rfl)
  have e2 : ∀ k : Fin 128, ridx_main_v57 (ix2 p j) k = ix2 k j := fun k =>
    funext fun a => Fin.ext (by match a with | ⟨0, _⟩ => rfl | ⟨1, _⟩ => rfl)
  have e3 : ∀ k : Fin 128, lidx_main_v62 (ix2 p j) k = ix2 p k := fun k =>
    funext fun a => Fin.ext (by match a with | ⟨0, _⟩ => rfl | ⟨1, _⟩ => rfl)
  have e4 : ∀ k : Fin 128, ridx_main_v62 (ix2 p j) k = ix2 k j := fun k =>
    funext fun a => Fin.ext (by match a with | ⟨0, _⟩ => rfl | ⟨1, _⟩ => rfl)
  have e5 : idx_main_v58 (idx_main_v59 (ix2 p j)) = ix1 j :=
    funext fun a => Fin.ext (by match a with | ⟨0, _⟩ => rfl)
  simp only [e1, e2, e3, e4, e5, Ideal.addf_def]
  unfold lin
  exact add_right_comm _ _ _

attribute [local irreducible] val_main_v55 val_main_v36 val_main_v56 val_main_v61 val_main_v63

/-- The sum of the squares of row p of the linear part. -/
theorem layer1_sumsq (p : Fin 50000) :
    val_main_call2_v1 (F := Ideal) x0 x1 x3 x4 x5 x6 x7 x8 (ix1 p)
    = ∑ k : Fin 128, lin (fun k => val_main_v55 (F := Ideal) x0 x1 x3 x4 x5 (ix2 p k)) (fun k => val_main_v36 (F := Ideal) x0 x1 x3 x4 x5 (ix2 p k))
        (fun k c => val_main_v56 (F := Ideal) x6 (ix2 k c)) (fun k c => val_main_v61 (F := Ideal) x7 (ix2 k c)) (fun c => x8 (ix1 c)) k * lin (fun k => val_main_v55 (F := Ideal) x0 x1 x3 x4 x5 (ix2 p k)) (fun k => val_main_v36 (F := Ideal) x0 x1 x3 x4 x5 (ix2 p k))
        (fun k c => val_main_v56 (F := Ideal) x6 (ix2 k c)) (fun k c => val_main_v61 (F := Ideal) x7 (ix2 k c)) (fun c => x8 (ix1 c)) k := by
  rw [val_main_call2_v1_apply, val_main_call2_cst_apply]
  refine (ofBits_zero_add _).trans (Finset.sum_congr rfl fun k _ => ?_)
  have e : idx_main_call2_v1 (ix1 p) k = ix2 p k :=
    funext fun a => Fin.ext (by match a with | ⟨0, _⟩ => rfl | ⟨1, _⟩ => rfl)
  rw [e, val_main_call2_v0_apply, layer1_lin]
  rfl

/-- The floored length of row p. -/
theorem layer1_norm (p : Fin 50000) :
    val_main_v66 (F := Ideal) x0 x1 x3 x4 x5 x6 x7 x8 (ix2 p (0 : Fin 1))
    = max (Ideal.sqrt (∑ k : Fin 128, lin (fun k => val_main_v55 (F := Ideal) x0 x1 x3 x4 x5 (ix2 p k)) (fun k => val_main_v36 (F := Ideal) x0 x1 x3 x4 x5 (ix2 p k))
        (fun k c => val_main_v56 (F := Ideal) x6 (ix2 k c)) (fun k c => val_main_v61 (F := Ideal) x7 (ix2 k c)) (fun c => x8 (ix1 c)) k * lin (fun k => val_main_v55 (F := Ideal) x0 x1 x3 x4 x5 (ix2 p k)) (fun k => val_main_v36 (F := Ideal) x0 x1 x3 x4 x5 (ix2 p k))
        (fun k c => val_main_v56 (F := Ideal) x6 (ix2 k c)) (fun k c => val_main_v61 (F := Ideal) x7 (ix2 k c)) (fun c => x8 (ix1 c)) k)) eps := by
  rw [val_main_v66_apply, val_main_v64_apply, val_main_call2_v2_apply, val_main_v65_apply, val_main_cst_11_apply]
  have e : idx_main_call2_v2 (ix2 p (0 : Fin 1)) = ix1 p :=
    funext fun a => Fin.ext (by match a with | ⟨0, _⟩ => rfl)
  rw [e, layer1_sumsq]
  rfl

/-- The layer's output at node p, column q. -/
theorem layer1_out (p : Fin 50000) (q : Fin 128) :
    val_main_v69 (F := Ideal) x0 x1 x3 x4 x5 x6 x7 x8 (ix2 p q)
    = combRelu (fun k => val_main_v55 (F := Ideal) x0 x1 x3 x4 x5 (ix2 p k)) (fun k => val_main_v36 (F := Ideal) x0 x1 x3 x4 x5 (ix2 p k))
        (fun k c => val_main_v56 (F := Ideal) x6 (ix2 k c)) (fun k c => val_main_v61 (F := Ideal) x7 (ix2 k c)) (fun c => x8 (ix1 c)) q := by
  rw [val_main_v69_apply, val_main_call3_v0_apply, val_main_call3_cst_apply]
  rw [val_main_v68_apply, val_main_v67_apply]
  have e : idx_main_v67 (ix2 p q) = ix2 p (0 : Fin 1) :=
    funext fun a => Fin.ext (by match a with | ⟨0, _⟩ => rfl | ⟨1, _⟩ => rfl)
  rw [e, layer1_norm, layer1_lin]
  rfl

end layer1

/-! ## Layer 2 -/

section layer2
variable (x0 : (⟨S50000x128, .f32⟩ : BufTy).Contents (Elt Ideal)) (x1 : (⟨S2x800000, .i32⟩ : BufTy).Contents (Elt Ideal)) (x3 x4 : (⟨S128x128, .f32⟩ : BufTy).Contents (Elt Ideal)) (x5 : (⟨S128, .f32⟩ : BufTy).Contents (Elt Ideal)) (x6 x7 : (⟨S128x128, .f32⟩ : BufTy).Contents (Elt Ideal)) (x8 : (⟨S128, .f32⟩ : BufTy).Contents (Elt Ideal)) (x9 x10 : (⟨S64x128, .f32⟩ : BufTy).Contents (Elt Ideal)) (x11 : (⟨S64, .f32⟩ : BufTy).Contents (Elt Ideal))

/-- The linear part of the layer at node p, column j. -/
theorem layer2_lin (p : Fin 50000) (j : Fin 64) :
    val_main_v96 (F := Ideal) x0 x1 x3 x4 x5 x6 x7 x8 x9 x10 x11 (ix2 p j)
    = lin (fun k => val_main_v88 (F := Ideal) x0 x1 x3 x4 x5 x6 x7 x8 (ix2 p k)) (fun k => val_main_v69 (F := Ideal) x0 x1 x3 x4 x5 x6 x7 x8 (ix2 p k))
        (fun k c => val_main_v89 (F := Ideal) x9 (ix2 k c)) (fun k c => val_main_v94 (F := Ideal) x10 (ix2 k c)) (fun c => x11 (ix1 c)) j := by
  rw [val_main_v96_apply, val_main_v93_apply, val_main_v90_apply, val_main_v92_apply, val_main_v91_apply, val_main_v95_apply]
  have e1 : ∀ k : Fin 128, lidx_main_v90 (ix2 p j) k = ix2 p k := fun k =>
    funext fun a => Fin.ext (by match a with | ⟨0, _⟩ => rfl | ⟨1, _⟩ => rfl)
  have e2 : ∀ k : Fin 128, ridx_main_v90 (ix2 p j) k = ix2 k j := fun k =>
    funext fun a => Fin.ext (by match a with | ⟨0, _⟩ => rfl | ⟨1, _⟩ => rfl)
  have e3 : ∀ k : Fin 128, lidx_main_v95 (ix2 p j) k = ix2 p k := fun k =>
    funext fun a => Fin.ext (by match a with | ⟨0, _⟩ => rfl | ⟨1, _⟩ => rfl)
  have e4 : ∀ k : Fin 128, ridx_main_v95 (ix2 p j) k = ix2 k j := fun k =>
    funext fun a => Fin.ext (by match a with | ⟨0, _⟩ => rfl | ⟨1, _⟩ => rfl)
  have e5 : idx_main_v91 (idx_main_v92 (ix2 p j)) = ix1 j :=
    funext fun a => Fin.ext (by match a with | ⟨0, _⟩ => rfl)
  simp only [e1, e2, e3, e4, e5, Ideal.addf_def]
  unfold lin
  exact add_right_comm _ _ _

attribute [local irreducible] val_main_v88 val_main_v69 val_main_v89 val_main_v94 val_main_v96

/-- The sum of the squares of row p of the linear part. -/
theorem layer2_sumsq (p : Fin 50000) :
    val_main_call4_v1 (F := Ideal) x0 x1 x3 x4 x5 x6 x7 x8 x9 x10 x11 (ix1 p)
    = ∑ k : Fin 64, lin (fun k => val_main_v88 (F := Ideal) x0 x1 x3 x4 x5 x6 x7 x8 (ix2 p k)) (fun k => val_main_v69 (F := Ideal) x0 x1 x3 x4 x5 x6 x7 x8 (ix2 p k))
        (fun k c => val_main_v89 (F := Ideal) x9 (ix2 k c)) (fun k c => val_main_v94 (F := Ideal) x10 (ix2 k c)) (fun c => x11 (ix1 c)) k * lin (fun k => val_main_v88 (F := Ideal) x0 x1 x3 x4 x5 x6 x7 x8 (ix2 p k)) (fun k => val_main_v69 (F := Ideal) x0 x1 x3 x4 x5 x6 x7 x8 (ix2 p k))
        (fun k c => val_main_v89 (F := Ideal) x9 (ix2 k c)) (fun k c => val_main_v94 (F := Ideal) x10 (ix2 k c)) (fun c => x11 (ix1 c)) k := by
  rw [val_main_call4_v1_apply, val_main_call4_cst_apply]
  refine (ofBits_zero_add _).trans (Finset.sum_congr rfl fun k _ => ?_)
  have e : idx_main_call4_v1 (ix1 p) k = ix2 p k :=
    funext fun a => Fin.ext (by match a with | ⟨0, _⟩ => rfl | ⟨1, _⟩ => rfl)
  rw [e, val_main_call4_v0_apply, layer2_lin]
  rfl

/-- The floored length of row p. -/
theorem layer2_norm (p : Fin 50000) :
    val_main_v99 (F := Ideal) x0 x1 x3 x4 x5 x6 x7 x8 x9 x10 x11 (ix2 p (0 : Fin 1))
    = max (Ideal.sqrt (∑ k : Fin 64, lin (fun k => val_main_v88 (F := Ideal) x0 x1 x3 x4 x5 x6 x7 x8 (ix2 p k)) (fun k => val_main_v69 (F := Ideal) x0 x1 x3 x4 x5 x6 x7 x8 (ix2 p k))
        (fun k c => val_main_v89 (F := Ideal) x9 (ix2 k c)) (fun k c => val_main_v94 (F := Ideal) x10 (ix2 k c)) (fun c => x11 (ix1 c)) k * lin (fun k => val_main_v88 (F := Ideal) x0 x1 x3 x4 x5 x6 x7 x8 (ix2 p k)) (fun k => val_main_v69 (F := Ideal) x0 x1 x3 x4 x5 x6 x7 x8 (ix2 p k))
        (fun k c => val_main_v89 (F := Ideal) x9 (ix2 k c)) (fun k c => val_main_v94 (F := Ideal) x10 (ix2 k c)) (fun c => x11 (ix1 c)) k)) eps := by
  rw [val_main_v99_apply, val_main_v97_apply, val_main_call4_v2_apply, val_main_v98_apply, val_main_cst_18_apply]
  have e : idx_main_call4_v2 (ix2 p (0 : Fin 1)) = ix1 p :=
    funext fun a => Fin.ext (by match a with | ⟨0, _⟩ => rfl)
  rw [e, layer2_sumsq]
  rfl

/-- The layer's output at node p, column q. -/
theorem layer2_out (p : Fin 50000) (q : Fin 64) :
    val_main_v101 (F := Ideal) x0 x1 x3 x4 x5 x6 x7 x8 x9 x10 x11 (ix2 p q)
    = combPlain (fun k => val_main_v88 (F := Ideal) x0 x1 x3 x4 x5 x6 x7 x8 (ix2 p k)) (fun k => val_main_v69 (F := Ideal) x0 x1 x3 x4 x5 x6 x7 x8 (ix2 p k))
        (fun k c => val_main_v89 (F := Ideal) x9 (ix2 k c)) (fun k c => val_main_v94 (F := Ideal) x10 (ix2 k c)) (fun c => x11 (ix1 c)) q := by

  rw [val_main_v101_apply, val_main_v100_apply]
  have e : idx_main_v100 (ix2 p q) = ix2 p (0 : Fin 1) :=
    funext fun a => Fin.ext (by match a with | ⟨0, _⟩ => rfl | ⟨1, _⟩ => rfl)
  rw [e, layer2_norm, layer2_lin]
  rfl

end layer2

end Cert.RefLayers

end
-- ==== Proof.KernelValue.lean ====
/-
  The kernel program's result as the reference's function of the arguments.

  The program's buffers are followed from the launch to the return: a stretch of host operations, a kernel region, a
  stretch, a region, a stretch, a region, a last stretch.  Each stretch's results are its operations applied to what the
  buffers held before it (the gathers, scatter-adds, divisions and transposes here are the very operations the
  reference applies, so they are left as they are); a buffer the stretch does not write, and a buffer that is not one of
  a region's arrays, keeps its contents.  Each region's output array is the combine step of every node (Region0–2),
  which is what the reference's layer computes (RefLayers).  Changes of float format are the identity on extended reals.
  So stage by stage the kernel program's buffers hold the reference's stages, and its result the reference's result.
-/
import proofs.«140957_j82703890251957_1_alg».proof.Proof.Gen.KernelIdeal.Frame
import proofs.«140957_j82703890251957_1_alg».proof.Proof.Gen.ReferenceIdeal.Read
import proofs.«140957_j82703890251957_1_alg».proof.Proof.Region0
import proofs.«140957_j82703890251957_1_alg».proof.Proof.Region1
import proofs.«140957_j82703890251957_1_alg».proof.Proof.Region2
import proofs.«140957_j82703890251957_1_alg».proof.Proof.RefLayers
import Idealize.ShloMosaic.Lib.StableHlo.Run
import Idealize.ShloMosaic.Lib.ValueLayout

set_option maxRecDepth 16384

noncomputable section

namespace Cert.KernelValue

open Cert.KernelIdeal Cert.KernelIdeal.Gen Cert.ReferenceIdeal.Read Cert.Combine
open Idealize.ShloMosaic Idealize.ShloMosaic.TcCoe Idealize.ShloMosaic.ValueIdx Idealize.ShloMosaic.StableHlo Idealize.SL.Sem

variable (m : (ℓ : Loc nD τ sig) → Buf (Elt Ideal) ℓ) (ρ : Dev nD → PrngReg) (c : Dev nD)

set_option quotPrecheck false in
local notation "arg[" k "]" => m ((c : Thread nD τ).loc k)

/-- A buffer that no operation of a stretch writes keeps its contents over the stretch. -/
local macro "host_keeps" ops:ident : tactic => `(tactic|
  exact StableHlo.after_of_forall_not_mem _ _ (List.forall_iff_forall_mem.mp (by
    simp only [$ops:ident, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))))

/-- The results of a stretch, read back through its operations. -/
local macro "host_reads" ops:ident : tactic => `(tactic| (dsimp only [$ops:ident]; after_results_simp))

/-! ## Each region's array function at a node and a column -/

theorem nodes0_at (a x : S50000x128.Idx → EReal) (wl wr : S128x128.Idx → EReal) (b : S1x128.Idx → EReal) (p : Fin 50000) (q : Fin 128) :
    KernelRegion0.nodes a x wl wr b (ix2 p q)
    = combRelu (fun k => a (ix2 p k)) (fun k => x (ix2 p k)) (fun k j => wl (ix2 k j)) (fun k j => wr (ix2 k j)) (fun j => b (ix2 (0 : Fin 1) j)) q := rfl

theorem nodes1_at (a x : S50000x128.Idx → EReal) (wl wr : S128x128.Idx → EReal) (b : S1x128.Idx → EReal) (p : Fin 50000) (q : Fin 128) :
    KernelRegion1.nodes a x wl wr b (ix2 p q)
    = combRelu (fun k => a (ix2 p k)) (fun k => x (ix2 p k)) (fun k j => wl (ix2 k j)) (fun k j => wr (ix2 k j)) (fun j => b (ix2 (0 : Fin 1) j)) q := rfl

theorem nodes2_at (a x : S50000x128.Idx → EReal) (wl wr : S128x64.Idx → EReal) (b : S1x64.Idx → EReal) (p : Fin 50000) (q : Fin 64) :
    KernelRegion2.nodes a x wl wr b (ix2 p q)
    = combPlain (fun k => a (ix2 p k)) (fun k => x (ix2 p k)) (fun k j => wl (ix2 k j)) (fun k j => wr (ix2 k j)) (fun j => b (ix2 (0 : Fin 1) j)) q := rfl

/-! ## The first stretch: the edge lists, the in-degrees, the first aggregate, the first layer's operands -/

theorem h0_v1 : (W1 m ρ c (Proc.devRef .tc main_v1) : S800000.Idx → BitVec 32) = val_main_v1 (F := Ideal) arg[main_arg1] := by
  show StableHlo.after hostOps0 (W0 m ρ c) (Proc.devRef .tc main_v1) = _
  host_reads hostOps0
  rfl

theorem h0_v3 : (W1 m ρ c (Proc.devRef .tc main_v3) : S800000.Idx → BitVec 32) = val_main_v3 (F := Ideal) arg[main_arg1] := by
  show StableHlo.after hostOps0 (W0 m ρ c) (Proc.devRef .tc main_v3) = _
  host_reads hostOps0
  rfl

theorem h0_v9 : (W1 m ρ c (Proc.devRef .tc main_v9) : S50000.Idx → EReal) = val_main_v19 (F := Ideal) arg[main_arg1] := by
  show StableHlo.after hostOps0 (W0 m ρ c) (Proc.devRef .tc main_v9) = _
  host_reads hostOps0
  rfl

theorem h0_v28 : (W1 m ρ c (Proc.devRef .tc main_v28) : FVec Ideal S50000x128 .bf16) = (truncf .bf16 (val_main_v22 (F := Ideal) arg[main_arg0] arg[main_arg1] : FVec Ideal S50000x128 .f32) bitsLt_bf16_f32 : FVec Ideal S50000x128 .bf16) := by
  show StableHlo.after hostOps0 (W0 m ρ c) (Proc.devRef .tc main_v28) = _
  host_reads hostOps0
  all_goals rfl

theorem h0_v29 : (W1 m ρ c (Proc.devRef .tc main_v29) : FVec Ideal S50000x128 .bf16) = (truncf .bf16 ((arg[main_arg0] : S50000x128.Idx → EReal) : FVec Ideal S50000x128 .f32) bitsLt_bf16_f32 : FVec Ideal S50000x128 .bf16) := by
  show StableHlo.after hostOps0 (W0 m ρ c) (Proc.devRef .tc main_v29) = _
  host_reads hostOps0
  all_goals rfl

theorem h0_v24 : (W1 m ρ c (Proc.devRef .tc main_v24) : FVec Ideal S128x128 .bf16) = (truncf .bf16 (val_main_v23 (F := Ideal) arg[main_arg3] : FVec Ideal S128x128 .f32) bitsLt_bf16_f32 : FVec Ideal S128x128 .bf16) := by
  show StableHlo.after hostOps0 (W0 m ρ c) (Proc.devRef .tc main_v24) = _
  host_reads hostOps0
  all_goals rfl

theorem h0_v26 : (W1 m ρ c (Proc.devRef .tc main_v26) : FVec Ideal S128x128 .bf16) = (truncf .bf16 (val_main_v28 (F := Ideal) arg[main_arg4] : FVec Ideal S128x128 .f32) bitsLt_bf16_f32 : FVec Ideal S128x128 .bf16) := by
  show StableHlo.after hostOps0 (W0 m ρ c) (Proc.devRef .tc main_v26) = _
  host_reads hostOps0
  all_goals rfl

theorem h0_v27 : (W1 m ρ c (Proc.devRef .tc main_v27) : S1x128.Idx → EReal) = shapeCast S1x128 (arg[main_arg5] : S128.Idx → EReal) shapeCasts_S128_S1x128 := by
  show StableHlo.after hostOps0 (W0 m ρ c) (Proc.devRef .tc main_v27) = _
  host_reads hostOps0
  all_goals rfl

/-! ## Region 0: the first layer -/

theorem r0_v30 : (W2 m ρ c (Proc.devRef .tc main_v30) : S50000x128.Idx → EReal) = val_main_v36 (F := Ideal) arg[main_arg0] arg[main_arg1] arg[main_arg3] arg[main_arg4] arg[main_arg5] := by
  refine (W2_arr m ρ c 5).trans ?_
  refine (KernelRegion0.final (V1 m ρ) c).trans ?_
  funext i
  obtain ⟨p, q, rfl⟩ : ∃ (p : Fin 50000) (q : Fin 128), i = ix2 p q := ⟨i 0, i 1, eq_ix2 i⟩
  rw [nodes0_at, RefLayers.layer0_out]
  have ea : (V1 m ρ c main_v28 : S50000x128.Idx → EReal) = _ := h0_v28 m ρ c
  have ex : (V1 m ρ c main_v29 : S50000x128.Idx → EReal) = _ := h0_v29 m ρ c
  have el : (V1 m ρ c main_v24 : S128x128.Idx → EReal) = _ := h0_v24 m ρ c
  have er : (V1 m ρ c main_v26 : S128x128.Idx → EReal) = _ := h0_v26 m ρ c
  have eb : (V1 m ρ c main_v27 : S1x128.Idx → EReal) = _ := h0_v27 m ρ c
  rw [ea, ex, el, er, eb]
  simp only [truncf_apply]
  refine congrArg (fun b => combRelu _ _ _ _ b q) (funext fun j => ?_)
  exact shapeCast_a_1a_apply _ shapeCasts_S128_S1x128 (0 : Fin 1) j

/-! ## What region 0 and the second stretch keep -/

theorem w2_v1 : (W2 m ρ c (Proc.devRef .tc main_v1) : S800000.Idx → BitVec 32) = val_main_v1 (F := Ideal) arg[main_arg1] :=
  (W2_of_ne m ρ c main_v1 (by decide)).trans (h0_v1 m ρ c)

theorem w2_v3 : (W2 m ρ c (Proc.devRef .tc main_v3) : S800000.Idx → BitVec 32) = val_main_v3 (F := Ideal) arg[main_arg1] :=
  (W2_of_ne m ρ c main_v3 (by decide)).trans (h0_v3 m ρ c)

theorem w2_v9 : (W2 m ρ c (Proc.devRef .tc main_v9) : S50000.Idx → EReal) = val_main_v19 (F := Ideal) arg[main_arg1] :=
  (W2_of_ne m ρ c main_v9 (by decide)).trans (h0_v9 m ρ c)

theorem w1_arg6 : W1 m ρ c (Proc.devRef .tc main_arg6) = arg[main_arg6] := by
  refine Eq.trans (b := W0 m ρ c (Proc.devRef .tc main_arg6)) ?_ rfl
  host_keeps hostOps0

theorem w2_arg6 : W2 m ρ c (Proc.devRef .tc main_arg6) = arg[main_arg6] :=
  (W2_of_ne m ρ c main_arg6 (by decide)).trans (w1_arg6 m ρ c)

theorem w1_arg7 : W1 m ρ c (Proc.devRef .tc main_arg7) = arg[main_arg7] := by
  refine Eq.trans (b := W0 m ρ c (Proc.devRef .tc main_arg7)) ?_ rfl
  host_keeps hostOps0

theorem w2_arg7 : W2 m ρ c (Proc.devRef .tc main_arg7) = arg[main_arg7] :=
  (W2_of_ne m ρ c main_arg7 (by decide)).trans (w1_arg7 m ρ c)

theorem w1_arg8 : W1 m ρ c (Proc.devRef .tc main_arg8) = arg[main_arg8] := by
  refine Eq.trans (b := W0 m ρ c (Proc.devRef .tc main_arg8)) ?_ rfl
  host_keeps hostOps0

theorem w2_arg8 : W2 m ρ c (Proc.devRef .tc main_arg8) = arg[main_arg8] :=
  (W2_of_ne m ρ c main_arg8 (by decide)).trans (w1_arg8 m ρ c)

theorem w1_arg9 : W1 m ρ c (Proc.devRef .tc main_arg9) = arg[main_arg9] := by
  refine Eq.trans (b := W0 m ρ c (Proc.devRef .tc main_arg9)) ?_ rfl
  host_keeps hostOps0

theorem w2_arg9 : W2 m ρ c (Proc.devRef .tc main_arg9) = arg[main_arg9] :=
  (W2_of_ne m ρ c main_arg9 (by decide)).trans (w1_arg9 m ρ c)

theorem w1_arg10 : W1 m ρ c (Proc.devRef .tc main_arg10) = arg[main_arg10] := by
  refine Eq.trans (b := W0 m ρ c (Proc.devRef .tc main_arg10)) ?_ rfl
  host_keeps hostOps0

theorem w2_arg10 : W2 m ρ c (Proc.devRef .tc main_arg10) = arg[main_arg10] :=
  (W2_of_ne m ρ c main_arg10 (by decide)).trans (w1_arg10 m ρ c)

theorem w1_arg11 : W1 m ρ c (Proc.devRef .tc main_arg11) = arg[main_arg11] := by
  refine Eq.trans (b := W0 m ρ c (Proc.devRef .tc main_arg11)) ?_ rfl
  host_keeps hostOps0

theorem w2_arg11 : W2 m ρ c (Proc.devRef .tc main_arg11) = arg[main_arg11] :=
  (W2_of_ne m ρ c main_arg11 (by decide)).trans (w1_arg11 m ρ c)

theorem w1_arg2 : W1 m ρ c (Proc.devRef .tc main_arg2) = arg[main_arg2] := by
  refine Eq.trans (b := W0 m ρ c (Proc.devRef .tc main_arg2)) ?_ rfl
  host_keeps hostOps0

theorem w2_arg2 : W2 m ρ c (Proc.devRef .tc main_arg2) = arg[main_arg2] :=
  (W2_of_ne m ρ c main_arg2 (by decide)).trans (w1_arg2 m ρ c)

/-! ## The second stretch: the second aggregate and the second layer's operands -/

theorem h1_v49 : (W3 m ρ c (Proc.devRef .tc main_v49) : FVec Ideal S50000x128 .bf16) = (truncf .bf16 (val_main_v55 (F := Ideal) arg[main_arg0] arg[main_arg1] arg[main_arg3] arg[main_arg4] arg[main_arg5] : FVec Ideal S50000x128 .f32) bitsLt_bf16_f32 : FVec Ideal S50000x128 .bf16) := by
  show StableHlo.after hostOps1 (W2 m ρ c) (Proc.devRef .tc main_v49) = _
  host_reads hostOps1
  rw [w2_v1 m ρ c, w2_v3 m ρ c, w2_v9 m ρ c, r0_v30 m ρ c]
  all_goals rfl

theorem h1_v50 : (W3 m ρ c (Proc.devRef .tc main_v50) : FVec Ideal S50000x128 .bf16) = (truncf .bf16 (val_main_v36 (F := Ideal) arg[main_arg0] arg[main_arg1] arg[main_arg3] arg[main_arg4] arg[main_arg5] : FVec Ideal S50000x128 .f32) bitsLt_bf16_f32 : FVec Ideal S50000x128 .bf16) := by
  show StableHlo.after hostOps1 (W2 m ρ c) (Proc.devRef .tc main_v50) = _
  host_reads hostOps1
  rw [r0_v30 m ρ c]
  all_goals rfl

theorem h1_v45 : (W3 m ρ c (Proc.devRef .tc main_v45) : FVec Ideal S128x128 .bf16) = (truncf .bf16 (val_main_v56 (F := Ideal) arg[main_arg6] : FVec Ideal S128x128 .f32) bitsLt_bf16_f32 : FVec Ideal S128x128 .bf16) := by
  show StableHlo.after hostOps1 (W2 m ρ c) (Proc.devRef .tc main_v45) = _
  host_reads hostOps1
  rw [w2_arg6 m ρ c]
  all_goals rfl

theorem h1_v47 : (W3 m ρ c (Proc.devRef .tc main_v47) : FVec Ideal S128x128 .bf16) = (truncf .bf16 (val_main_v61 (F := Ideal) arg[main_arg7] : FVec Ideal S128x128 .f32) bitsLt_bf16_f32 : FVec Ideal S128x128 .bf16) := by
  show StableHlo.after hostOps1 (W2 m ρ c) (Proc.devRef .tc main_v47) = _
  host_reads hostOps1
  rw [w2_arg7 m ρ c]
  all_goals rfl

theorem h1_v48 : (W3 m ρ c (Proc.devRef .tc main_v48) : S1x128.Idx → EReal) = shapeCast S1x128 (arg[main_arg8] : S128.Idx → EReal) shapeCasts_S128_S1x128 := by
  show StableHlo.after hostOps1 (W2 m ρ c) (Proc.devRef .tc main_v48) = _
  host_reads hostOps1
  rw [w2_arg8 m ρ c]
  all_goals rfl

/-! ## Region 1: the second layer -/

theorem r1_v51 : (W4 m ρ c (Proc.devRef .tc main_v51) : S50000x128.Idx → EReal) = val_main_v69 (F := Ideal) arg[main_arg0] arg[main_arg1] arg[main_arg3] arg[main_arg4] arg[main_arg5] arg[main_arg6] arg[main_arg7] arg[main_arg8] := by
  refine (W4_arr m ρ c 5).trans ?_
  refine (KernelRegion1.final (V3 m ρ) c).trans ?_
  funext i
  obtain ⟨p, q, rfl⟩ : ∃ (p : Fin 50000) (q : Fin 128), i = ix2 p q := ⟨i 0, i 1, eq_ix2 i⟩
  rw [nodes1_at, RefLayers.layer1_out]
  have ea : (V3 m ρ c main_v49 : S50000x128.Idx → EReal) = _ := h1_v49 m ρ c
  have ex : (V3 m ρ c main_v50 : S50000x128.Idx → EReal) = _ := h1_v50 m ρ c
  have el : (V3 m ρ c main_v45 : S128x128.Idx → EReal) = _ := h1_v45 m ρ c
  have er : (V3 m ρ c main_v47 : S128x128.Idx → EReal) = _ := h1_v47 m ρ c
  have eb : (V3 m ρ c main_v48 : S1x128.Idx → EReal) = _ := h1_v48 m ρ c
  rw [ea, ex, el, er, eb]
  simp only [truncf_apply]
  refine congrArg (fun b => combRelu _ _ _ _ b q) (funext fun j => ?_)
  exact shapeCast_a_1a_apply _ shapeCasts_S128_S1x128 (0 : Fin 1) j

/-! ## What region 1 and the third stretch keep -/

theorem w4_v1 : (W4 m ρ c (Proc.devRef .tc main_v1) : S800000.Idx → BitVec 32) = val_main_v1 (F := Ideal) arg[main_arg1] := by
  refine (W4_of_ne m ρ c main_v1 (by decide)).trans ?_
  refine Eq.trans (b := W2 m ρ c (Proc.devRef .tc main_v1)) ?_ (w2_v1 m ρ c)
  host_keeps hostOps1

theorem w4_v3 : (W4 m ρ c (Proc.devRef .tc main_v3) : S800000.Idx → BitVec 32) = val_main_v3 (F := Ideal) arg[main_arg1] := by
  refine (W4_of_ne m ρ c main_v3 (by decide)).trans ?_
  refine Eq.trans (b := W2 m ρ c (Proc.devRef .tc main_v3)) ?_ (w2_v3 m ρ c)
  host_keeps hostOps1

theorem w4_v9 : (W4 m ρ c (Proc.devRef .tc main_v9) : S50000.Idx → EReal) = val_main_v19 (F := Ideal) arg[main_arg1] := by
  refine (W4_of_ne m ρ c main_v9 (by decide)).trans ?_
  refine Eq.trans (b := W2 m ρ c (Proc.devRef .tc main_v9)) ?_ (w2_v9 m ρ c)
  host_keeps hostOps1

theorem w4_arg9 : (W4 m ρ c (Proc.devRef .tc main_arg9) : S64x128.Idx → EReal) = arg[main_arg9] := by
  refine (W4_of_ne m ρ c main_arg9 (by decide)).trans ?_
  refine Eq.trans (b := W2 m ρ c (Proc.devRef .tc main_arg9)) ?_ (w2_arg9 m ρ c)
  host_keeps hostOps1

theorem w4_arg10 : (W4 m ρ c (Proc.devRef .tc main_arg10) : S64x128.Idx → EReal) = arg[main_arg10] := by
  refine (W4_of_ne m ρ c main_arg10 (by decide)).trans ?_
  refine Eq.trans (b := W2 m ρ c (Proc.devRef .tc main_arg10)) ?_ (w2_arg10 m ρ c)
  host_keeps hostOps1

theorem w4_arg11 : (W4 m ρ c (Proc.devRef .tc main_arg11) : S64.Idx → EReal) = arg[main_arg11] := by
  refine (W4_of_ne m ρ c main_arg11 (by decide)).trans ?_
  refine Eq.trans (b := W2 m ρ c (Proc.devRef .tc main_arg11)) ?_ (w2_arg11 m ρ c)
  host_keeps hostOps1

theorem w4_arg2 : (W4 m ρ c (Proc.devRef .tc main_arg2) : S50000.Idx → BitVec 32) = arg[main_arg2] := by
  refine (W4_of_ne m ρ c main_arg2 (by decide)).trans ?_
  refine Eq.trans (b := W2 m ρ c (Proc.devRef .tc main_arg2)) ?_ (w2_arg2 m ρ c)
  host_keeps hostOps1

/-! ## The third stretch: the third aggregate and the last layer's operands -/

theorem h2_v70 : (W5 m ρ c (Proc.devRef .tc main_v70) : FVec Ideal S50000x128 .bf16) = (truncf .bf16 (val_main_v88 (F := Ideal) arg[main_arg0] arg[main_arg1] arg[main_arg3] arg[main_arg4] arg[main_arg5] arg[main_arg6] arg[main_arg7] arg[main_arg8] : FVec Ideal S50000x128 .f32) bitsLt_bf16_f32 : FVec Ideal S50000x128 .bf16) := by
  show StableHlo.after hostOps2 (W4 m ρ c) (Proc.devRef .tc main_v70) = _
  host_reads hostOps2
  rw [w4_v1 m ρ c, w4_v3 m ρ c, w4_v9 m ρ c, r1_v51 m ρ c]
  all_goals rfl

theorem h2_v71 : (W5 m ρ c (Proc.devRef .tc main_v71) : FVec Ideal S50000x128 .bf16) = (truncf .bf16 (val_main_v69 (F := Ideal) arg[main_arg0] arg[main_arg1] arg[main_arg3] arg[main_arg4] arg[main_arg5] arg[main_arg6] arg[main_arg7] arg[main_arg8] : FVec Ideal S50000x128 .f32) bitsLt_bf16_f32 : FVec Ideal S50000x128 .bf16) := by
  show StableHlo.after hostOps2 (W4 m ρ c) (Proc.devRef .tc main_v71) = _
  host_reads hostOps2
  rw [r1_v51 m ρ c]
  all_goals rfl

theorem h2_v66 : (W5 m ρ c (Proc.devRef .tc main_v66) : FVec Ideal S128x64 .bf16) = (truncf .bf16 (val_main_v89 (F := Ideal) arg[main_arg9] : FVec Ideal S128x64 .f32) bitsLt_bf16_f32 : FVec Ideal S128x64 .bf16) := by
  show StableHlo.after hostOps2 (W4 m ρ c) (Proc.devRef .tc main_v66) = _
  host_reads hostOps2
  rw [w4_arg9 m ρ c]
  all_goals rfl

theorem h2_v68 : (W5 m ρ c (Proc.devRef .tc main_v68) : FVec Ideal S128x64 .bf16) = (truncf .bf16 (val_main_v94 (F := Ideal) arg[main_arg10] : FVec Ideal S128x64 .f32) bitsLt_bf16_f32 : FVec Ideal S128x64 .bf16) := by
  show StableHlo.after hostOps2 (W4 m ρ c) (Proc.devRef .tc main_v68) = _
  host_reads hostOps2
  rw [w4_arg10 m ρ c]
  all_goals rfl

theorem h2_v69 : (W5 m ρ c (Proc.devRef .tc main_v69) : S1x64.Idx → EReal) = shapeCast S1x64 (arg[main_arg11] : S64.Idx → EReal) shapeCasts_S64_S1x64 := by
  show StableHlo.after hostOps2 (W4 m ρ c) (Proc.devRef .tc main_v69) = _
  host_reads hostOps2
  rw [w4_arg11 m ρ c]
  all_goals rfl

/-! ## Region 2: the last layer -/

theorem r2_v72 : (W6 m ρ c (Proc.devRef .tc main_v72) : S50000x64.Idx → EReal) = val_main_v101 (F := Ideal) arg[main_arg0] arg[main_arg1] arg[main_arg3] arg[main_arg4] arg[main_arg5] arg[main_arg6] arg[main_arg7] arg[main_arg8] arg[main_arg9] arg[main_arg10] arg[main_arg11] := by
  refine (W6_arr m ρ c 5).trans ?_
  refine (KernelRegion2.final (V5 m ρ) c).trans ?_
  funext i
  obtain ⟨p, q, rfl⟩ : ∃ (p : Fin 50000) (q : Fin 64), i = ix2 p q := ⟨i 0, i 1, eq_ix2 i⟩
  rw [nodes2_at, RefLayers.layer2_out]
  have ea : (V5 m ρ c main_v70 : S50000x128.Idx → EReal) = _ := h2_v70 m ρ c
  have ex : (V5 m ρ c main_v71 : S50000x128.Idx → EReal) = _ := h2_v71 m ρ c
  have el : (V5 m ρ c main_v66 : S128x64.Idx → EReal) = _ := h2_v66 m ρ c
  have er : (V5 m ρ c main_v68 : S128x64.Idx → EReal) = _ := h2_v68 m ρ c
  have eb : (V5 m ρ c main_v69 : S1x64.Idx → EReal) = _ := h2_v69 m ρ c
  rw [ea, ex, el, er, eb]
  simp only [truncf_apply]
  refine congrArg (fun b => combPlain _ _ _ _ b q) (funext fun j => ?_)
  exact shapeCast_a_1a_apply _ shapeCasts_S64_S1x64 (0 : Fin 1) j

/-! ## The last stretch: the mean over each graph -/

theorem w6_arg2 : (W6 m ρ c (Proc.devRef .tc main_arg2) : S50000.Idx → BitVec 32) = arg[main_arg2] := by
  refine (W6_of_ne m ρ c main_arg2 (by decide)).trans ?_
  refine Eq.trans (b := W4 m ρ c (Proc.devRef .tc main_arg2)) ?_ (w4_arg2 m ρ c)
  host_keeps hostOps2

/-- THE RESULT: the kernel program's result buffer ends at the reference's function of the twelve arguments. -/
theorem result : (W7 m ρ c (Proc.devRef .tc main_v84) : S64x64.Idx → EReal)
    = val_main_v113 (F := Ideal) arg[main_arg0] arg[main_arg1] arg[main_arg2] arg[main_arg3] arg[main_arg4] arg[main_arg5] arg[main_arg6] arg[main_arg7] arg[main_arg8] arg[main_arg9] arg[main_arg10] arg[main_arg11] := by
  show StableHlo.after hostOps3 (W6 m ρ c) (Proc.devRef .tc main_v84) = _
  host_reads hostOps3
  rw [r2_v72 m ρ c, w6_arg2 m ρ c]
  all_goals rfl

end Cert.KernelValue

end
-- ==== Proof.lean ====
/-
  Three layers of mean-aggregation graph convolution over 50000 nodes and 800000 edges, then a mean over each of 64
  graphs: the kernel program against its jnp reference, on the extended reals.

  Both programs aggregate neighbour features with the same host operations (a gather of rows at the edge sources, a
  scatter-add at the edge targets, a division by the floored in-degree).  They differ in the per-node combine step:
  the reference computes it with whole-array host operations, the kernel program in a pallas_call per layer that
  handles 2000 nodes per grid point, and the two add the bias at different places.  Per node the two compute the same
  number (CombineRow, CombineBlock, Region0–2, RefLayers); the kernel program's buffers are then followed stage by
  stage (KernelRun, KernelValue) to the reference's own result term.  The ideal pass rewrote nothing, so the
  preservation claim is empty; finiteness of the inputs is never needed, since only commutativity and associativity
  of the addition are used.
-/
import proofs.«140957_j82703890251957_1_alg».proof.Defs
import proofs.«140957_j82703890251957_1_alg».proof.Proof.Gen.Kernel
import proofs.«140957_j82703890251957_1_alg».proof.Proof.Gen.Kernel.Frame
import proofs.«140957_j82703890251957_1_alg».proof.Proof.Gen.KernelIdeal
import proofs.«140957_j82703890251957_1_alg».proof.Proof.Gen.KernelIdeal.Frame
import proofs.«140957_j82703890251957_1_alg».proof.Proof.Gen.ReferenceIdeal
import proofs.«140957_j82703890251957_1_alg».proof.Proof.Gen.Pre_finite_inputs
import proofs.«140957_j82703890251957_1_alg».proof.Proof.Gen.ReferenceIdeal.Run
import proofs.«140957_j82703890251957_1_alg».proof.Proof.Gen.ReferenceIdeal.Read
import proofs.«140957_j82703890251957_1_alg».proof.Proof.KernelRun
import proofs.«140957_j82703890251957_1_alg».proof.Proof.KernelValue
import Idealize.ShloMosaic.Adequacy
import Idealize.ShloMosaic.Init

noncomputable section

namespace Cert.Proof

open Idealize.ShloMosaic Idealize.SL.Sem

/-- The word-level kernel program runs and leaves its arguments unchanged. -/
theorem frame_k : Cert.frame_Kernel := fun m ρ _ => Cert.Kernel.Gen.frame m ρ

/-- The idealized kernel program runs and leaves its arguments unchanged. -/
theorem frame_ki : Cert.frame_KernelIdeal := fun m ρ _ => Cert.KernelIdeal.Gen.frame m ρ

/-- The reference runs and leaves its arguments unchanged: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the arguments both programs end with the same [64, 64] array of graph means: the
    reference's function of the arguments. -/
theorem algebraic : Cert.algebraic_KernelIdeal_ReferenceIdeal := by
  intro m ρ m' ρ' _ hagree
  refine ⟨fun c => Cert.KernelIdeal.Gen.W7 m ρ c (Proc.devRef .tc Cert.KernelIdeal.main_v84), Cert.KernelRun.run (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11⟩ := hagree c
  rw [Cert.ReferenceIdeal.Read.val_main_v113_eq, h0, h1, h2, h3, h4, h5, h6, h7, h8, h9, h10, h11]
  exact (Cert.KernelValue.result m ρ c).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
